-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4x1x1024x16 : Shape := ⟨5, ![1, 4, 1, 1024, 16]⟩
abbrev S1024 : Shape := ⟨1, ![1024]⟩
abbrev S16 : Shape := ⟨1, ![16]⟩
abbrev S_ : Shape := ⟨0, ![]⟩

class Facts : Prop where
  bcast_S_S1x4x1x1024x16 : S_.BroadcastsInDim S1x4x1x1024x16 (![] : Fin 0 → Fin S1x4x1x1024x16.rank)
  reducesTo_S1x4x1x1024x16_S_d0_1_2_3_4 : S1x4x1x1024x16.ReducesTo [0, 1, 2, 3, 4] S_
  h_S_ : 0 < S_.numel
  bcast_S_S1024 : S_.BroadcastsInDim S1024 (![] : Fin 0 → Fin S1024.rank)
  reducesTo_S1024_S_d0 : S1024.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S1x4x1x1024x16 .f32) (main_arg1 : FVec F S1x4x1x1024x16 .f32) (main_arg2 : FVec F S1024 .f32) (main_arg3 : FVec F S16 .f32) : IVec S_ 1 :=
  let main_v0 : FVec F S1x4x1x1024x16 .f32 := Host.absf main_arg0
  let main_cst : FVec F S_ .f32 := constant S_ .f32 0x7F800000#32
  let main_v1 : FVec F S1x4x1x1024x16 .f32 := broadcastInDim S1x4x1x1024x16 ![] bcast_S_S1x4x1x1024x16 main_cst
  let main_v2 : IVec S1x4x1x1024x16 1 := cmpf .olt main_v0 main_v1
  let main_c : IVec S_ 1 := constantI S_ 1 1#1
  let main_v3 : IVec S_ 1 := (fun x v => Host.reduce IntOp.andi x v reducesTo_S1x4x1x1024x16_S_d0_1_2_3_4 h_S_) main_v2 main_c
  let main_v4 : FVec F S1x4x1x1024x16 .f32 := Host.absf main_arg1
  let main_cst_0 : FVec F S_ .f32 := constant S_ .f32 0x7F800000#32
  let main_v5 : FVec F S1x4x1x1024x16 .f32 := broadcastInDim S1x4x1x1024x16 ![] bcast_S_S1x4x1x1024x16 main_cst_0
  let main_v6 : IVec S1x4x1x1024x16 1 := cmpf .olt main_v4 main_v5
  let main_c_1 : IVec S_ 1 := constantI S_ 1 1#1
  let main_v7 : IVec S_ 1 := (fun x v => Host.reduce IntOp.andi x v reducesTo_S1x4x1x1024x16_S_d0_1_2_3_4 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S1x4x1x1024x16 : Shape := ⟨5, ![1, 4, 1, 1024, 16]⟩
abbrev S1024 : Shape := ⟨1, ![1024]⟩
abbrev S16 : Shape := ⟨1, ![16]⟩
abbrev S_ : Shape := ⟨0, ![]⟩
abbrev S4x1024x16 : Shape := ⟨3, ![4, 1024, 16]⟩
abbrev S1x1024x1 : Shape := ⟨3, ![1, 1024, 1]⟩
abbrev S16x4x1024 : Shape := ⟨3, ![16, 4, 1024]⟩
abbrev S16x4x128 : Shape := ⟨3, ![16, 4, 128]⟩
abbrev S128 : Shape := ⟨1, ![128]⟩
abbrev S16x4x128x1 : Shape := ⟨4, ![16, 4, 128, 1]⟩
abbrev S16x4x1x128 : Shape := ⟨4, ![16, 4, 1, 128]⟩
abbrev S16x4x128x128 : Shape := ⟨4, ![16, 4, 128, 128]⟩
abbrev S16x128x128 : Shape := ⟨3, ![16, 128, 128]⟩
abbrev S16x1x1 : Shape := ⟨3, ![16, 1, 1]⟩
abbrev S128x128 : Shape := ⟨2, ![128, 128]⟩

abbrev nBuf : Space → Nat
  | .hbm => 29
  | .vmem => 11
  | .smem => 0
  | _ => 0

abbrev bufTy : (tb : Table) → Fin (tcTables nBuf tb) → BufTy
  | .hbm, ⟨0, _⟩ => ⟨S1x4x1x1024x16, .f32⟩
  | .hbm, ⟨1, _⟩ => ⟨S1x4x1x1024x16, .f32⟩
  | .hbm, ⟨2, _⟩ => ⟨S1024, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S4x1024x16, .f32⟩
  | .hbm, ⟨15, _⟩ => ⟨S4x1024x16, .f32⟩
  | .hbm, ⟨16, _⟩ => ⟨S1x1024x1, .f32⟩
  | .hbm, ⟨17, _⟩ => ⟨S4x1024x16, .f32⟩
  | .hbm, ⟨18, _⟩ => ⟨S4x1024x16, .f32⟩
  | .hbm, ⟨19, _⟩ => ⟨S1x1024x1, .f32⟩
  | .hbm, ⟨20, _⟩ => ⟨S4x1024x16, .f32⟩
  | .hbm, ⟨21, _⟩ => ⟨S4x1024x16, .f32⟩
  | .hbm, ⟨22, _⟩ => ⟨S16x4x1024, .f32⟩
  | .hbm, ⟨23, _⟩ => ⟨S16x4x1024, .f32⟩
  | .hbm, ⟨24, _⟩ => ⟨S1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S16, .f32⟩
  | .local _ .vmem, ⟨1, _⟩ => ⟨S16x4x128, .f32⟩
  | .local _ .vmem, ⟨2, _⟩ => ⟨S16x4x128, .f32⟩
  | .local _ .vmem, ⟨3, _⟩ => ⟨S16x4x128, .f32⟩
  | .local _ .vmem, ⟨4, _⟩ => ⟨S16x4x128, .f32⟩
  | .local _ .vmem, ⟨5, _⟩ => ⟨S16x4x128, .f32⟩
  | .local _ .vmem, ⟨6, _⟩ => ⟨S16x4x128, .f32⟩
  | .local _ .vmem, ⟨7, _⟩ => ⟨S16x4x128, .f32⟩
  | .local _ .vmem, ⟨8, _⟩ => ⟨S16x4x128, .f32⟩
  | .local _ .vmem, ⟨9, _⟩ => ⟨S128, .f32⟩
  | .local _ .vmem, ⟨10, _⟩ => ⟨S128, .f32⟩
  | _, _ => ⟨S1x4x1x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S16 : S_.BroadcastsInDim S16 (![] : Fin 0 → Fin S16.rank)
  reducesTo_S1024_S_d0 : S1024.ReducesTo [0] S_
  h_S_ : 0 < S_.numel
  bcast_S_S1024 : S_.BroadcastsInDim S1024 (![] : Fin 0 → Fin S1024.rank)
  shapeCasts_S1x4x1x1024x16_S4x1024x16 : S1x4x1x1024x16.ShapeCasts S4x1024x16
  bcast_S1024_S1x1024x1_1 : S1024.BroadcastsInDim S1x1024x1 (![1] : Fin 1 → Fin S1x1024x1.rank)
  bcast_S1x1024x1_S4x1024x16_0_1_2 : S1x1024x1.BroadcastsInDim S4x1024x16 (![0, 1, 2] : Fin 3 → Fin S4x1024x16.rank)
  transposes_S4x1024x16_S16x4x1024_2_0_1 : S4x1024x16.Transposes [2, 0, 1] S16x4x1024
  inb_S128_S128_0 : ∀ a, (![0] : Fin 1 → Nat) a + S128.size a ≤ S128.size a
  h_S128 : 0 < S128.numel
  inb_S16x4x128_S16x4x128_0_0_0 : ∀ a, (![0, 0, 0] : Fin 3 → Nat) a + S16x4x128.size a ≤ S16x4x128.size a
  h_S16x4x128 : 0 < S16x4x128.numel
  shapeCasts_S16x4x128_S16x4x128 : S16x4x128.ShapeCasts S16x4x128
  shapeCasts_S16x4x128_S16x4x128x1 : S16x4x128.ShapeCasts S16x4x128x1
  shapeCasts_S16x4x128_S16x4x1x128 : S16x4x128.ShapeCasts S16x4x1x128
  broadcasts_S16x4x128x1_S16x4x128x128 : S16x4x128x1.Broadcasts S16x4x128x128
  broadcasts_S16x4x1x128_S16x4x128x128 : S16x4x1x128.Broadcasts S16x4x128x128
  reduces_S16x4x128x128_S16x128x128 : S16x4x128x128.Reduces [1] S16x128x128
  inb_S16_S16_0 : ∀ a, (![0] : Fin 1 → Nat) a + S16.size a ≤ S16.size a
  h_S16 : 0 < S16.numel
  shapeCasts_S16_S16 : S16.ShapeCasts S16
  shapeCasts_S16_S16x1x1 : S16.ShapeCasts S16x1x1
  broadcasts_S16x1x1_S16x128x128 : S16x1x1.Broadcasts S16x128x128
  reduces_S16x128x128_S128x128 : S16x128x128.Reduces [0] S128x128
  reduces_S128x128_S128 : S128x128.Reduces [1] S128
  shapeCasts_S128_S128 : S128.ShapeCasts S128
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16.size a ≤ S16.size a
  hwx0_0 : ∀ i : grid0.Coords, EltTy.bits .f32 = 32 ∨ (Rect.block (s := S16) S16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x128.size a ≤ S16x4x1024.size a
  hwx0_1 : ∀ i : grid0.Coords, EltTy.bits .f32 = 32 ∨ (Rect.block (s := S16x4x1024) S16x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4x128.size a ≤ S16x4x1024.size a
  hwx0_2 : ∀ i : grid0.Coords, EltTy.bits .f32 = 32 ∨ (Rect.block (s := S16x4x1024) S16x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x4x128.size a ≤ S16x4x1024.size a
  hwx0_3 : ∀ i : grid0.Coords, EltTy.bits .f32 = 32 ∨ (Rect.block (s := S16x4x1024) S16x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4x128.size a ≤ S16x4x1024.size a
  hwx0_4 : ∀ i : grid0.Coords, EltTy.bits .f32 = 32 ∨ (Rect.block (s := S16x4x1024) S16x4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S1024.size a
  hwx0_5 : ∀ i : grid0.Coords, EltTy.bits .f32 = 32 ∨ (Rect.block (s := S1024) S128.size (cc0_transform_5 i) (hinb0_5 i)).WholeWords (EltTy.packing .f32)

variable [Facts₀]

abbrev win0_0 : Pipeline.Window sig grid0 :=
  Pipeline.Window.ofSpec (Memref.whole main_v1) S16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S16x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S16x4x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x4x1x1024x16 : Shape := ⟨5, ![1, 4, 1, 1024, 16]⟩
abbrev S1024 : Shape := ⟨1, ![1024]⟩
abbrev S16 : Shape := ⟨1, ![16]⟩
abbrev S_ : Shape := ⟨0, ![]⟩
abbrev S1024x1 : Shape := ⟨2, ![1024, 1]⟩
abbrev S1x1x1x1024x1 : Shape := ⟨5, ![1, 1, 1, 1024, 1]⟩
abbrev S1x4x1x1024x1x16 : Shape := ⟨6, ![1, 4, 1, 1024, 1, 16]⟩
abbrev S1x4x1x1x1024x16 : Shape := ⟨6, ![1, 4, 1, 1, 1024, 16]⟩
abbrev S1x4x1x1024x1024x16 : Shape := ⟨6, ![1, 4, 1, 1024, 1024, 16]⟩
abbrev S1x1x1024x1024x16 : Shape := ⟨5, ![1, 1, 1024, 1024, 16]⟩
abbrev S1x1x16 : Shape := ⟨3, ![1, 1, 16]⟩

abbrev nBuf : Space → Nat
  | .hbm => 59
  | .vmem => 0
  | .smem => 0
  | _ => 0

abbrev bufTy : (tb : Table) → Fin (tcTables nBuf tb) → BufTy
  | .hbm, ⟨0, _⟩ => ⟨S1x4x1x1024x16, .f32⟩
  | .hbm, ⟨1, _⟩ => ⟨S1x4x1x1024x16, .f32⟩
  | .hbm, ⟨2, _⟩ => ⟨S1024, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S1024x1, .f32⟩
  | .hbm, ⟨8, _⟩ => ⟨S_, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1x1x1x1024x1, .f32⟩
  | .hbm, ⟨16, _⟩ => ⟨S1x4x1x1024x16, .f32⟩
  | .hbm, ⟨17, _⟩ => ⟨S1x4x1x1024x16, .f32⟩
  | .hbm, ⟨18, _⟩ => ⟨S1x1x1x1024x1, .f32⟩
  | .hbm, ⟨19, _⟩ => ⟨S1x4x1x1024x16, .f32⟩
  | .hbm, ⟨20, _⟩ => ⟨S1x4x1x1024x16, .f32⟩
  | .hbm, ⟨21, _⟩ => ⟨S1x4x1x1024x1x16, .f32⟩
  | .hbm, ⟨22, _⟩ => ⟨S1x4x1x1x1024x16, .f32⟩
  | .hbm, ⟨23, _⟩ => ⟨S1x4x1x1024x1024x16, .f32⟩
  | .hbm, ⟨24, _⟩ => ⟨S1x4x1x1024x1024x16, .f32⟩
  | .hbm, ⟨25, _⟩ => ⟨S1x4x1x1024x1024x16, .f32⟩
  | .hbm, ⟨26, _⟩ => ⟨S1x4x1x1024x1024x16, .f32⟩
  | .hbm, ⟨27, _⟩ => ⟨S_, .f32⟩
  | .hbm, ⟨28, _⟩ => ⟨S1x4x1x1024x1024x16, .f32⟩
  | .hbm, ⟨29, _⟩ => ⟨S1x4x1x1024x1024x16, .f32⟩
  | .hbm, ⟨30, _⟩ => ⟨S_, .f32⟩
  | .hbm, ⟨31, _⟩ => ⟨S1x1x1024x1024x16, .f32⟩
  | .hbm, ⟨32, _⟩ => ⟨S_, .f32⟩
  | .hbm, ⟨33, _⟩ => ⟨S1x1x1024x1024x16, .f32⟩
  | .hbm, ⟨34, _⟩ => ⟨S1x1x1024x1024x16, .f32⟩
  | .hbm, ⟨35, _⟩ => ⟨S1x4x1x1024x1x16, .f32⟩
  | .hbm, ⟨36, _⟩ => ⟨S1x4x1x1x1024x16, .f32⟩
  | .hbm, ⟨37, _⟩ => ⟨S1x4x1x1024x1024x16, .f32⟩
  | .hbm, ⟨38, _⟩ => ⟨S1x4x1x1024x1024x16, .f32⟩
  | .hbm, ⟨39, _⟩ => ⟨S1x4x1x1024x1024x16, .f32⟩
  | .hbm, ⟨40, _⟩ => ⟨S1x4x1x1024x1024x16, .f32⟩
  | .hbm, ⟨41, _⟩ => ⟨S_, .f32⟩
  | .hbm, ⟨42, _⟩ => ⟨S1x4x1x1024x1024x16, .f32⟩
  | .hbm, ⟨43, _⟩ => ⟨S1x4x1x1024x1024x16, .f32⟩
  | .hbm, ⟨44, _⟩ => ⟨S_, .f32⟩
  | .hbm, ⟨45, _⟩ => ⟨S1x1x1024x1024x16, .f32⟩
  | .hbm, ⟨46, _⟩ => ⟨S_, .f32⟩
  | .hbm, ⟨47, _⟩ => ⟨S1x1x1024x1024x16, .f32⟩
  | .hbm, ⟨48, _⟩ => ⟨S1x1x1024x1024x16, .f32⟩
  | .hbm, ⟨49, _⟩ => ⟨S1x1x1024x1024x16, .f32⟩
  | .hbm, ⟨50, _⟩ => ⟨S1x1x1024x1024x16, .f32⟩
  | .hbm, ⟨51, _⟩ => ⟨S_, .f32⟩
  | .hbm, ⟨52, _⟩ => ⟨S1x1x16, .f32⟩
  | .hbm, ⟨53, _⟩ => ⟨S1x1x16, .f32⟩
  | .hbm, ⟨54, _⟩ => ⟨S1x1x16, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S1x4x1x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S1024_S1024x1_0 : S1024.BroadcastsInDim S1024x1 (![0] : Fin 1 → Fin S1024x1.rank)
  reducesTo_S1024x1_S_d0_1 : S1024x1.ReducesTo [0, 1] S_
  h_S_ : 0 < S_.numel
  bcast_S_S1024x1 : S_.BroadcastsInDim S1024x1 (![] : Fin 0 → Fin S1024x1.rank)
  bcast_S1024x1_S1x1x1x1024x1_3_4 : S1024x1.BroadcastsInDim S1x1x1x1024x1 (![3, 4] : Fin 2 → Fin S1x1x1x1024x1.rank)
  bcast_S1x1x1x1024x1_S1x4x1x1024x16_0_1_2_3_4 : S1x1x1x1024x1.BroadcastsInDim S1x4x1x1024x16 (![0, 1, 2, 3, 4] : Fin 5 → Fin S1x4x1x1024x16.rank)
  bcast_S1x4x1x1024x16_S1x4x1x1024x1x16_0_1_2_3_5 : S1x4x1x1024x16.BroadcastsInDim S1x4x1x1024x1x16 (![0, 1, 2, 3, 5] : Fin 5 → Fin S1x4x1x1024x1x16.rank)
  bcast_S1x4x1x1024x16_S1x4x1x1x1024x16_0_1_2_4_5 : S1x4x1x1024x16.BroadcastsInDim S1x4x1x1x1024x16 (![0, 1, 2, 4, 5] : Fin 5 → Fin S1x4x1x1x1024x16.rank)
  bcast_S1x4x1x1024x1x16_S1x4x1x1024x1024x16_0_1_2_3_4_5 : S1x4x1x1024x1x16.BroadcastsInDim S1x4x1x1024x1024x16 (![0, 1, 2, 3, 4, 5] : Fin 6 → Fin S1x4x1x1024x1024x16.rank)
  bcast_S1x4x1x1x1024x16_S1x4x1x1024x1024x16_0_1_2_3_4_5 : S1x4x1x1x1024x16.BroadcastsInDim S1x4x1x1024x1024x16 (![0, 1, 2, 3, 4, 5] : Fin 6 → Fin S1x4x1x1024x1024x16.rank)
  bcast_S_S1x4x1x1024x1024x16 : S_.BroadcastsInDim S1x4x1x1024x1024x16 (![] : Fin 0 → Fin S1x4x1x1024x1024x16.rank)
  reducesTo_S1x4x1x1024x1024x16_S1x1x1024x1024x16_d1 : S1x4x1x1024x1024x16.ReducesTo [1] S1x1x1024x1024x16
  bcast_S_S1x1x1024x1024x16 : S_.BroadcastsInDim S1x1x1024x1024x16 (![] : Fin 0 → Fin S1x1x1024x1024x16.rank)
  reducesTo_S1x1x1024x1024x16_S1x1x16_d2_3 : S1x1x1024x1024x16.ReducesTo [2, 3] S1x1x16
  bcast_S16_S1x1x16_2 : S16.BroadcastsInDim S1x1x16 (![2] : Fin 1 → Fin S1x1x16.rank)
  reducesTo_S1x1x16_S_d0_1_2 : S1x1x16.ReducesTo [0, 1, 2] S_

variable [Facts₀]

class Facts : Prop extends Facts₀ where

variable [Facts]
-- ==== Proof.KIB.BodyRuns.lean ====
/-
  The kernel body of the pairwise fourth-power score, run symbolically at one grid point.

  The grid is 8 x 8: the first coordinate picks the 128 rows l1 of the output block, the second the 128 columns l2 that
  are summed at this point. The body branches once, on the second coordinate being zero: there it first overwrites the
  output block with zeros. In both cases it then loads the weight vector and the four input blocks (the two row blocks and
  the two column blocks of the scaled predictions and targets), loads the output block, and stores the output block plus
  this point's row sums. What the output block's buffer ends with is recorded as the list of stores applied to it, last
  first: two stores where the block is reset, one store elsewhere.
-/
import proofs.«115486_j74277164417458_1_alg».proof.Proof.Gen.Kernel.Launch
import proofs.«115486_j74277164417458_1_alg».proof.Proof.Gen.Kernel.Skeleton
import proofs.«115486_j74277164417458_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the column-block coordinate is zero (the chain of integer comparisons the body
    evaluates on the second grid coordinate). -/
abbrev colZero (i : grid0.Coords) : Prop :=
  (Scalar.cmpi .ne (Scalar.extui (Scalar.cmpi .eq (BitVec.ofNat 32 (i 1).val) 0#32)) 0#32) = 1#1

/-- Over the 64 grid points in row-major order the column-block coordinate is zero exactly at the multiples of 8. -/
theorem colZero_iff : ∀ t : Fin cfg0.N, colZero (grid0.coords t) ↔ t.val % 8 = 0 :=
  (by decide +kernel : ∀ t : Fin grid0.N, colZero (grid0.coords t) ↔ t.val % 8 = 0)

set_option maxHeartbeats 1000000 in
/-- The body where the column block is the first of its row: the output buffer may hold anything; it ends with the zero
    store and then the accumulating store written into it. The inputs' buffers are only read. -/
noncomputable def runReset (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) :
    { L : List (View.Piece (Elt F) S128 .f32) //
      ∀ (E : Set ℕ) (K : PUnit → sProp 𝕄),
        iprop(owns (c : Thread nD τ) a2 fullShare w ∗ owns (c : Thread nD τ) a3 fullShare pr ∗ owns (c : Thread nD τ) a4 fullShare pc
            ∗ owns (c : Thread nD τ) a5 fullShare tr ∗ owns (c : Thread nD τ) a6 fullShare tc ∗ (∃ d, owns (c : Thread nD τ) a7 fullShare d)
            ∗ (iprop(owns (c : Thread nD τ) a2 fullShare w ∗ owns (c : Thread nD τ) a3 fullShare pr ∗ owns (c : Thread nD τ) a4 fullShare pc
                ∗ owns (c : Thread nD τ) a5 fullShare tr ∗ owns (c : Thread nD τ) a6 fullShare tc
                ∗ (∃ f, a7.view.loc (c : Thread nD τ) ↦[a7.view.set]{fullShare} a7.view.writes (Elt F) f L)) -∗ K ⟨⟩))
          ⊢ wp frame (wpE (defs₀ (F := F)) Variants.none c none) E (cc0__vs_kernel i a2 h2 a3 h3 a4 h4 a5 h5 a6 h6 a7 h7) K } := by
  refine ⟨?_, fun E K => ?run⟩
  case run =>
    simp only [cc0__vs_kernel_eq_skeleton]; unfold cc0__vs_kernel_skel
    simp only [k0_part1_eq_skeleton]
    unfold owns
    iintro ⟨⟨%f2, %e2, H2⟩, ⟨%f3, %e3, H3⟩, ⟨%f4, %e4, H4⟩, ⟨%f5, %e5, H5⟩, ⟨%f6, %e6, H6⟩, ⟨%d7, %f7, -, H7⟩, Hk⟩
    obtain rfl := h2.eq_unread e2; obtain rfl := h3.eq_unread e3; obtain rfl := h4.eq_unread e4
    obtain rfl := h5.eq_unread e5; obtain rfl := h6.eq_unread e6
    sl_exec (disch := first | exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

set_option maxHeartbeats 1000000 in
/-- The body at a later column block of the row: the output buffer holds the running sums `acc`; it ends with the one
    accumulating store written into it. -/
noncomputable def runAdd (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) :
    { L : List (View.Piece (Elt F) S128 .f32) //
      ∀ (E : Set ℕ) (K : PUnit → sProp 𝕄),
        iprop(owns (c : Thread nD τ) a2 fullShare w ∗ owns (c : Thread nD τ) a3 fullShare pr ∗ owns (c : Thread nD τ) a4 fullShare pc
            ∗ owns (c : Thread nD τ) a5 fullShare tr ∗ owns (c : Thread nD τ) a6 fullShare tc ∗ owns (c : Thread nD τ) a7 fullShare acc
            ∗ (iprop(owns (c : Thread nD τ) a2 fullShare w ∗ owns (c : Thread nD τ) a3 fullShare pr ∗ owns (c : Thread nD τ) a4 fullShare pc
                ∗ owns (c : Thread nD τ) a5 fullShare tr ∗ owns (c : Thread nD τ) a6 fullShare tc
                ∗ (∃ f, a7.view.loc (c : Thread nD τ) ↦[a7.view.set]{fullShare} a7.view.writes (Elt F) f L)) -∗ K ⟨⟩))
          ⊢ wp frame (wpE (defs₀ (F := F)) Variants.none c none) E (cc0__vs_kernel i a2 h2 a3 h3 a4 h4 a5 h5 a6 h6 a7 h7) K } := by
  refine ⟨?_, fun E K => ?run⟩
  case run =>
    simp only [cc0__vs_kernel_eq_skeleton]; unfold cc0__vs_kernel_skel
    simp only [k0_part1_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, Hk⟩
    obtain rfl := h2.eq_unread e2; obtain rfl := h3.eq_unread e3; obtain rfl := h4.eq_unread e4
    obtain rfl := h5.eq_unread e5; obtain rfl := h6.eq_unread e6; obtain rfl := h7.eq_unread e7
    sl_exec (disch := first | exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.Kernel.Hand

end
-- ==== Proof.KIB.PointData.lean ====
/-
  The proof data of the one pipeline: what every window's staging buffer holds after the body at every grid point.

  The five input windows only lend their blocks: after the body each still holds the block of its array at the point's
  block index — the weight vector whole, the row blocks at the first grid coordinate, the column blocks at the second.
  The output window's buffer carries the running row sums of the current row of the grid: at the first column block it is
  what the resetting run leaves, at each later one what the accumulating run leaves over the previous point's contents.
  The output block is written back to its array only after the last column block of a row, so between two points of one
  row the buffer is found as it was left.
-/
import proofs.«115486_j74277164417458_1_alg».proof.Proof.KIB.BodyRuns
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation of the host operations; -/
abbrev atLaunch (c : Dev nD) : Valuation τ sig (Elt F) := fun b => (s₀ m ρ).mem ((c : Dev nD), b)
/-- and when the region is entered: the twenty host operations before it have run. -/
abbrev atEntry (c : Dev nD) (b : Ref sig .tc) : Buf (Elt F) ((c : Thread nD τ).loc b) := StableHlo.after hostOps0 (atLaunch m ρ c) b

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m ρ c (Pipeline.arrRef spec0 w))

/-! ## The staging memrefs the pipeline calls the body with -/

abbrev buf0 (t : Fin cfg0.N) := win0_0.stage (cfg0.slots t 0)
abbrev whole0 (t : Fin cfg0.N) : (buf0 t).IsWhole := hstage0_0 ((cfg0.slots t 0).cast nbuf0_0)
abbrev buf1 (t : Fin cfg0.N) := win0_1.stage (cfg0.slots t 1)
abbrev whole1 (t : Fin cfg0.N) : (buf1 t).IsWhole := hstage0_1 ((cfg0.slots t 1).cast nbuf0_1)
abbrev buf2 (t : Fin cfg0.N) := win0_2.stage (cfg0.slots t 2)
abbrev whole2 (t : Fin cfg0.N) : (buf2 t).IsWhole := hstage0_2 ((cfg0.slots t 2).cast nbuf0_2)
abbrev buf3 (t : Fin cfg0.N) := win0_3.stage (cfg0.slots t 3)
abbrev whole3 (t : Fin cfg0.N) : (buf3 t).IsWhole := hstage0_3 ((cfg0.slots t 3).cast nbuf0_3)
abbrev buf4 (t : Fin cfg0.N) := win0_4.stage (cfg0.slots t 4)
abbrev whole4 (t : Fin cfg0.N) : (buf4 t).IsWhole := hstage0_4 ((cfg0.slots t 4).cast nbuf0_4)
abbrev buf5 (t : Fin cfg0.N) := win0_5.stage (cfg0.slots t 5)
abbrev whole5 (t : Fin cfg0.N) : (buf5 t).IsWhole := hstage0_5 ((cfg0.slots t 5).cast nbuf0_5)

/-- One staging buffer of the output window, through which its contents are stated (which one does not matter). -/
abbrev outView : View sig .tc .vmem S128 .f32 := (Memref.whole cc0_stg5_0 : Memref sig .tc .vmem S128 .f32).view

/-! ## What each case leaves in the output buffer -/

/-- The stores of the resetting case cover the whole 128-entry block. -/
theorem resetCovers (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) (y : S128.Idx) :
    ∃ p ∈ (runReset c i a2 h2 a3 h3 a4 h4 a5 h5 a6 h6 a7 h7 hc w pr pc tr tc).1, y ∈ p.1.set :=
  View.cover_of_tiledL (runReset c i a2 h2 a3 h3 a4 h4 a5 h5 a6 h6 a7 h7 hc w pr pc tr tc).1 S128.size (by sl_kernel_rfl) y

/-- The output block after the resetting case: its stores read back. -/
def afterReset (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) : Vec F S128 .f32 :=
  outView.read (Elt F) (outView.writes (Elt F) outView.junk (runReset c i a2 h2 a3 h3 a4 h4 a5 h5 a6 h6 a7 h7 hc w pr pc tr tc).1)

/-- The store of the accumulating case covers the whole block. -/
theorem addCovers (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) (y : S128.Idx) :
    ∃ p ∈ (runAdd c i a2 h2 a3 h3 a4 h4 a5 h5 a6 h6 a7 h7 hc w pr pc tr tc acc).1, y ∈ p.1.set :=
  View.cover_of_tiledL (runAdd c i a2 h2 a3 h3 a4 h4 a5 h5 a6 h6 a7 h7 hc w pr pc tr tc acc).1 S128.size (by sl_kernel_rfl) y

/-- The output block after the accumulating case, over the running sums `acc`. -/
def afterAdd (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) : Vec F S128 .f32 :=
  outView.read (Elt F) (outView.writes (Elt F) outView.junk (runAdd c i a2 h2 a3 h3 a4 h4 a5 h5 a6 h6 a7 h7 hc w pr pc tr tc acc).1)

/-! ## The running row sums, point by point -/

/-- What the output window's buffer holds after the body at position `n` of the grid: reset at the multiples of 8, else
    accumulated over what position `n - 1` left. -/
def accAt (c : Dev nD) : (n : ℕ) → n < cfg0.N → Vec F S128 .f32
  | 0, hn => afterReset c (grid0.coords ⟨0, hn⟩) (buf0 ⟨0, hn⟩) (whole0 ⟨0, hn⟩) (buf1 ⟨0, hn⟩) (whole1 ⟨0, hn⟩) (buf2 ⟨0, hn⟩) (whole2 ⟨0, hn⟩) (buf3 ⟨0, hn⟩) (whole3 ⟨0, hn⟩) (buf4 ⟨0, hn⟩) (whole4 ⟨0, hn⟩) (buf5 ⟨0, hn⟩) (whole5 ⟨0, hn⟩) ((colZero_iff ⟨0, hn⟩).mpr (Nat.zero_mod _))
      (blockAt m ρ c 0 ⟨0, hn⟩) (blockAt m ρ c 1 ⟨0, hn⟩) (blockAt m ρ c 2 ⟨0, hn⟩) (blockAt m ρ c 3 ⟨0, hn⟩) (blockAt m ρ c 4 ⟨0, hn⟩)
  | n + 1, hn =>
    if h0 : (n + 1) % 8 = 0 then
      afterReset c (grid0.coords ⟨n + 1, hn⟩) (buf0 ⟨n + 1, hn⟩) (whole0 ⟨n + 1, hn⟩) (buf1 ⟨n + 1, hn⟩) (whole1 ⟨n + 1, hn⟩) (buf2 ⟨n + 1, hn⟩) (whole2 ⟨n + 1, hn⟩) (buf3 ⟨n + 1, hn⟩) (whole3 ⟨n + 1, hn⟩) (buf4 ⟨n + 1, hn⟩) (whole4 ⟨n + 1, hn⟩) (buf5 ⟨n + 1, hn⟩) (whole5 ⟨n + 1, hn⟩) ((colZero_iff ⟨n + 1, hn⟩).mpr h0)
        (blockAt m ρ c 0 ⟨n + 1, hn⟩) (blockAt m ρ c 1 ⟨n + 1, hn⟩) (blockAt m ρ c 2 ⟨n + 1, hn⟩) (blockAt m ρ c 3 ⟨n + 1, hn⟩) (blockAt m ρ c 4 ⟨n + 1, hn⟩)
    else
      afterAdd c (grid0.coords ⟨n + 1, hn⟩) (buf0 ⟨n + 1, hn⟩) (whole0 ⟨n + 1, hn⟩) (buf1 ⟨n + 1, hn⟩) (whole1 ⟨n + 1, hn⟩) (buf2 ⟨n + 1, hn⟩) (whole2 ⟨n + 1, hn⟩) (buf3 ⟨n + 1, hn⟩) (whole3 ⟨n + 1, hn⟩) (buf4 ⟨n + 1, hn⟩) (whole4 ⟨n + 1, hn⟩) (buf5 ⟨n + 1, hn⟩) (whole5 ⟨n + 1, hn⟩) (fun h => h0 ((colZero_iff ⟨n + 1, hn⟩).mp h))
        (blockAt m ρ c 0 ⟨n + 1, hn⟩) (blockAt m ρ c 1 ⟨n + 1, hn⟩) (blockAt m ρ c 2 ⟨n + 1, hn⟩) (blockAt m ρ c 3 ⟨n + 1, hn⟩) (blockAt m ρ c 4 ⟨n + 1, hn⟩)
        (accAt c n (Nat.lt_of_succ_lt hn))

theorem accAt_reset (c : Dev nD) (t : Fin cfg0.N) (h0 : t.val % 8 = 0) :
    accAt m ρ c t.val t.isLt = afterReset c (grid0.coords t) (buf0 t) (whole0 t) (buf1 t) (whole1 t) (buf2 t) (whole2 t) (buf3 t) (whole3 t) (buf4 t) (whole4 t) (buf5 t) (whole5 t) ((colZero_iff t).mpr h0)
      (blockAt m ρ c 0 t) (blockAt m ρ c 1 t) (blockAt m ρ c 2 t) (blockAt m ρ c 3 t) (blockAt m ρ c 4 t) := by
  obtain ⟨n, hn⟩ := t
  cases n with
  | zero => exact rfl
  | succ n => exact (dif_pos h0).trans rfl

theorem accAt_add (c : Dev nD) (t : Fin cfg0.N) (h0 : ¬t.val % 8 = 0) :
    accAt m ρ c t.val t.isLt = afterAdd c (grid0.coords t) (buf0 t) (whole0 t) (buf1 t) (whole1 t) (buf2 t) (whole2 t) (buf3 t) (whole3 t) (buf4 t) (whole4 t) (buf5 t) (whole5 t) (fun h => h0 ((colZero_iff t).mp h))
      (blockAt m ρ c 0 t) (blockAt m ρ c 1 t) (blockAt m ρ c 2 t) (blockAt m ρ c 3 t) (blockAt m ρ c 4 t)
      (accAt m ρ c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The two windows on the scaled predictions each hold half of that array's share, and likewise the two on the scaled
    targets; the weight vector's window holds its array whole. -/
def dats (_ : Fin 1) (c : Dev nD) : Dat τ (Elt F) Unit ℕ (UR sig nD τ) ℕ cfg0 c where
  A w := atEntry m ρ c (Pipeline.arrRef spec0 w)
  after w t := match w with
    | ⟨0, _⟩ => blockAt m ρ c 0 t
    | ⟨1, _⟩ => blockAt m ρ c 1 t
    | ⟨2, _⟩ => blockAt m ρ c 2 t
    | ⟨3, _⟩ => blockAt m ρ c 3 t
    | ⟨4, _⟩ => blockAt m ρ c 4 t
    | ⟨5, _⟩ => accAt m ρ c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq (c : Dev nD) (w : Fin cfg0.W) : (dats m ρ 0 c).A w = atEntry m ρ c (Pipeline.arrRef spec0 w) := by
  dsimp only [dats]

theorem after_0 (c : Dev nD) (t : Fin cfg0.N) : (dats m ρ 0 c).after 0 t = blockAt m ρ c 0 t := by dsimp only [dats]
theorem after_1 (c : Dev nD) (t : Fin cfg0.N) : (dats m ρ 0 c).after 1 t = blockAt m ρ c 1 t := by dsimp only [dats]
theorem after_2 (c : Dev nD) (t : Fin cfg0.N) : (dats m ρ 0 c).after 2 t = blockAt m ρ c 2 t := by dsimp only [dats]
theorem after_3 (c : Dev nD) (t : Fin cfg0.N) : (dats m ρ 0 c).after 3 t = blockAt m ρ c 3 t := by dsimp only [dats]
theorem after_4 (c : Dev nD) (t : Fin cfg0.N) : (dats m ρ 0 c).after 4 t = blockAt m ρ c 4 t := by dsimp only [dats]
theorem after_5 (c : Dev nD) (t : Fin cfg0.N) : (dats m ρ 0 c).after 5 t = accAt m ρ c t.val t.isLt := by dsimp only [dats]

/-- Input window 0's current buffer holds its block at every point, fetched there or not. -/
theorem before_0 (c : Dev nD) (t : Fin cfg0.N) (d) : (dats m ρ 0 c).before 0 t d = blockAt m ρ c 0 t :=
  ((dats m ρ 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
/-- Input window 1's current buffer holds its block at every point, fetched there or not. -/
theorem before_1 (c : Dev nD) (t : Fin cfg0.N) (d) : (dats m ρ 0 c).before 1 t d = blockAt m ρ c 1 t :=
  ((dats m ρ 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
/-- Input window 2's current buffer holds its block at every point, fetched there or not. -/
theorem before_2 (c : Dev nD) (t : Fin cfg0.N) (d) : (dats m ρ 0 c).before 2 t d = blockAt m ρ c 2 t :=
  ((dats m ρ 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
/-- Input window 3's current buffer holds its block at every point, fetched there or not. -/
theorem before_3 (c : Dev nD) (t : Fin cfg0.N) (d) : (dats m ρ 0 c).before 3 t d = blockAt m ρ c 3 t :=
  ((dats m ρ 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
/-- Input window 4's current buffer holds its block at every point, fetched there or not. -/
theorem before_4 (c : Dev nD) (t : Fin cfg0.N) (d) : (dats m ρ 0 c).before 4 t d = blockAt m ρ c 4 t :=
  ((dats m ρ 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)

/-- At a later column block of a row the output window's buffer holds what the body left at the point before. -/
theorem before_5_add (c : Dev nD) (t : Fin cfg0.N) (h0 : ¬t.val % 8 = 0) (d) :
    (dats m ρ 0 c).before 5 t d = accAt m ρ c (t.val - 1) (Nat.lt_of_le_of_lt (Nat.sub_le _ _) t.isLt) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (buf0 t) fullShare ((dats m ρ 0 c).before 0 t d))
    ∗ (∃ d, owns (c : Thread nD τ) (buf1 t) fullShare ((dats m ρ 0 c).before 1 t d))
    ∗ (∃ d, owns (c : Thread nD τ) (buf2 t) fullShare ((dats m ρ 0 c).before 2 t d))
    ∗ (∃ d, owns (c : Thread nD τ) (buf3 t) fullShare ((dats m ρ 0 c).before 3 t d))
    ∗ (∃ d, owns (c : Thread nD τ) (buf4 t) fullShare ((dats m ρ 0 c).before 4 t d))
    ∗ (∃ d, owns (c : Thread nD τ) (buf5 t) fullShare ((dats m ρ 0 c).before 5 t d)))

def bodyPost (c : Dev nD) (t : Fin cfg0.N) : sProp 𝕄 :=
  iprop((dats m ρ 0 c).Φ t.succ ∗ (dats m ρ 0 c).owesAt () t.succ
    ∗ owns (c : Thread nD τ) (buf0 t) fullShare ((dats m ρ 0 c).after 0 t)
    ∗ owns (c : Thread nD τ) (buf1 t) fullShare ((dats m ρ 0 c).after 1 t)
    ∗ owns (c : Thread nD τ) (buf2 t) fullShare ((dats m ρ 0 c).after 2 t)
    ∗ owns (c : Thread nD τ) (buf3 t) fullShare ((dats m ρ 0 c).after 3 t)
    ∗ owns (c : Thread nD τ) (buf4 t) fullShare ((dats m ρ 0 c).after 4 t)
    ∗ owns (c : Thread nD τ) (buf5 t) fullShare ((dats m ρ 0 c).after 5 t))

set_option maxHeartbeats 1600000 in
/-- The body at any point: the inputs' buffers hold their blocks; the point is the first column block of its row or not;
    in the second case the output buffer holds the previous point's sums; the case's run applies; the invariant and the
    (empty) debts pass through. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5]
  by_cases h0 : t.val % 8 = 0
  · rw [accAt_reset m ρ c t h0]
    unfold afterReset
    iintro ⟨HΦ, Ho, ⟨%d0, H0⟩, ⟨%d1, H1⟩, ⟨%d2, H2⟩, ⟨%d3, H3⟩, ⟨%d4, H4⟩, ⟨%d5, H5⟩⟩
    iapply ((runReset c (grid0.coords t) _ _ _ _ _ _ _ _ _ _ _ _ ((colZero_iff t).mpr h0)
      (blockAt m ρ c 0 t) (blockAt m ρ c 1 t) (blockAt m ρ c 2 t) (blockAt m ρ c 3 t) (blockAt m ρ c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (resetCovers c _ _ _ _ _ _ _ _ _ _ _ _ _ _ _ _ _ _ _)
  · rw [accAt_add m ρ c t h0]
    simp only [before_5_add m ρ c t h0]
    unfold afterAdd
    iintro ⟨HΦ, Ho, ⟨%d0, H0⟩, ⟨%d1, H1⟩, ⟨%d2, H2⟩, ⟨%d3, H3⟩, ⟨%d4, H4⟩, ⟨%d5, H5⟩⟩
    iapply ((runAdd c (grid0.coords t) _ _ _ _ _ _ _ _ _ _ _ _ (fun h => h0 ((colZero_iff t).mp h))
      (blockAt m ρ c 0 t) (blockAt m ρ c 1 t) (blockAt m ρ c 2 t) (blockAt m ρ c 3 t) (blockAt m ρ c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (addCovers c _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KIB.Shares.lean ====
/-
  How the arrays enter and leave the pipeline when two windows read one array.

  The scaled predictions are handed to the kernel twice — once as the row block, once as the column block — and so are
  the scaled targets. Each of those two arrays is therefore held by two windows at once: at entry its full share is
  split into a left and a right half, one per window; at exit the two halves, which still hold the entry contents (an
  input array is never written), are joined back into the full share. The weight vector's array and the output array
  are each held by one window, whole.
-/
import proofs.«115486_j74277164417458_1_alg».proof.Proof.KIB.PointData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows: the weights, the scaled predictions, the scaled targets, the output. -/
theorem arrRefs_eq : Finset.univ.image (Pipeline.arrRef spec0) = ({main_v1, main_v15, main_v16, main_v17} : Finset (Ref sig .tc)) := by
  decide

theorem share_0 (c : Dev nD) : (dats m ρ 0 c).share 0 = fullShare := by unfold Dat.share; dsimp only [dats]; rfl
theorem share_1 (c : Dev nD) : (dats m ρ 0 c).share 1 = fullShare.left := by unfold Dat.share; dsimp only [dats]; rfl
theorem share_2 (c : Dev nD) : (dats m ρ 0 c).share 2 = fullShare.right := by unfold Dat.share; dsimp only [dats]; rfl
theorem share_3 (c : Dev nD) : (dats m ρ 0 c).share 3 = fullShare.left := by unfold Dat.share; dsimp only [dats]; rfl
theorem share_4 (c : Dev nD) : (dats m ρ 0 c).share 4 = fullShare.right := by unfold Dat.share; dsimp only [dats]; rfl
theorem share_5 (c : Dev nD) : (dats m ρ 0 c).share 5 = fullShare := by unfold Dat.share; dsimp only [dats]; rfl

/-- One window's array in the pipeline's account of the arrays: the whole buffer behind it, at the window's share. -/
theorem cell_eq (c : Dev nD) (w : Fin cfg0.W) (q : PosShare TreeShare) (hq : (dats m ρ 0 c).share w = q)
    (f : Buf (Elt F) ((cfg0.win w).arr.view.loc (c.tc : Thread nD τ))) :
    ((cfg0.win w).arr.view.loc (c.tc : Thread nD τ) ↦[(cfg0.win w).arr.view.set]{(dats m ρ 0 c).share w} f : sProp 𝕄)
      = (((c.tc : Thread nD τ).loc (Pipeline.arrRef spec0 w)) ↦{q} f) := by
  rw [(arr_whole0 w).set_eq_univ, hq]

/-- An input window's array, at any position of the grid, is the buffer behind it at the region-entry contents: an input
    array is never written. -/
theorem cell_in_eq (c : Dev nD) (w : Fin cfg0.W) (hin : (cfg0.win w).isOut = false) (q : PosShare TreeShare)
    (hq : (dats m ρ 0 c).share w = q) (n : ℕ) :
    ((cfg0.win w).arr.view.loc (c.tc : Thread nD τ) ↦[(cfg0.win w).arr.view.set]{(dats m ρ 0 c).share w} (dats m ρ 0 c).arrAt w n : sProp 𝕄)
      = (((c.tc : Thread nD τ).loc (Pipeline.arrRef spec0 w)) ↦{q} atEntry m ρ c (Pipeline.arrRef spec0 w)) := by
  rw [(arr_whole0 w).set_eq_univ, hq, (dats m ρ 0 c).arrAt_in w hin n, A_eq]

/-- ENTRY: the four buffers, each whole at the full share at the region-entry contents, are the six windows' arrays
    at the proof data's entry contents and shares. -/
theorem entry_arrays (c : Dev nD) :
    (Pipeline.arrBufs spec0 c (atEntry m ρ c) : sProp 𝕄) ⊢ (dats m ρ 0 c).arrays ((dats m ρ 0 c).arrAt · 0) := by
  unfold Pipeline.arrBufs Dat.arrays
  rw [arrRefs_eq, bigSep_insert (by decide), bigSep_insert (by decide), bigSep_insert (by decide), BI.bigSep_singleton, bigSep_W0]
  rw [cell_eq m ρ c 0 _ (share_0 m ρ c), cell_eq m ρ c 1 _ (share_1 m ρ c), cell_eq m ρ c 2 _ (share_2 m ρ c),
    cell_eq m ρ c 3 _ (share_3 m ρ c), cell_eq m ρ c 4 _ (share_4 m ρ c), cell_eq m ρ c 5 _ (share_5 m ρ c)]
  refine (show iprop((((c.tc : Thread nD τ).loc main_v1) ↦{fullShare} atEntry m ρ c main_v1)
      ∗ (((c.tc : Thread nD τ).loc main_v15) ↦{fullShare} atEntry m ρ c main_v15)
      ∗ (((c.tc : Thread nD τ).loc main_v16) ↦{fullShare} atEntry m ρ c main_v16)
      ∗ (((c.tc : Thread nD τ).loc main_v17) ↦{fullShare} atEntry m ρ c main_v17)) ⊢ _ from ?_)
  iintro ⟨H1, H15, H16, H17⟩
  ihave H15 := (pointsTo_share (PosShare.mem_left_op_right fullShare)).1 $$ H15
  icases H15 with ⟨H15l, H15r⟩
  ihave H16 := (pointsTo_share (PosShare.mem_left_op_right fullShare)).1 $$ H16
  icases H16 with ⟨H16l, H16r⟩
  isplitl [H1]; · iexact H1
  isplitl [H15l]; · iexact H15l
  isplitl [H15r]; · iexact H15r
  isplitl [H16l]; · iexact H16l
  isplitl [H16r]; · iexact H16r
  iexact H17

/-! ## At the region's exit -/

/-- Core `c`'s buffers when the region is left: as it found them, but for the output array, which holds what the
    write-backs made of it. -/
def atExit (c : Dev nD) : Valuation τ sig (Elt F) :=
  Function.update (StableHlo.after hostOps0 (atLaunch m ρ c)) (Proc.devRef .tc main_v17) ((dats m ρ 0 c).arrAt 5 cfg0.N)

theorem atExit_out (c : Dev nD) : atExit m ρ c (Proc.devRef .tc main_v17) = (dats m ρ 0 c).arrAt 5 cfg0.N := by
  unfold atExit; exact Function.update_self _ _ _

theorem atExit_of_ne (c : Dev nD) (b : Ref sig .tc) (hb : b ≠ main_v17) :
    atExit m ρ c (Proc.devRef .tc b) = atEntry m ρ c b := by
  unfold atExit; exact Function.update_of_ne (StableHlo.devRef_ne_of_ne hb) _ _

/-- EXIT: the six windows' arrays at their final contents — the inputs' as at entry, the halves of the two shared arrays
    joined — and the buffers no window stages are all of the core's unscoped buffers at the exit valuation. -/
theorem exit_arrays (c : Dev nD) :
    iprop((dats m ρ 0 c).arrays ((dats m ρ 0 c).arrAt · cfg0.N) ∗ Pipeline.unscopedRest spec0 c (atEntry m ρ c))
      ⊢ (unscopedBufs c (fun b => atExit m ρ c b) : sProp 𝕄) := by
  rw [Pipeline.unscopedBufs_split₀ cfgs (0 : Fin 1) winFacts₀0.arr_unscoped c (fun b => atExit m ρ c b)]
  refine sep_mono ?_ (Entails.of_eq ?_)
  · unfold Pipeline.arrBufs Dat.arrays
    rw [arrRefs_eq, bigSep_insert (by decide), bigSep_insert (by decide), bigSep_insert (by decide), BI.bigSep_singleton, bigSep_W0]
    beta_reduce
    rw [cell_in_eq m ρ c 0 rfl _ (share_0 m ρ c) cfg0.N, cell_in_eq m ρ c 1 rfl _ (share_1 m ρ c) cfg0.N,
      cell_in_eq m ρ c 2 rfl _ (share_2 m ρ c) cfg0.N, cell_in_eq m ρ c 3 rfl _ (share_3 m ρ c) cfg0.N,
      cell_in_eq m ρ c 4 rfl _ (share_4 m ρ c) cfg0.N, cell_eq m ρ c 5 _ (share_5 m ρ c)]
    rw [atExit_of_ne m ρ c main_v1 (by decide), atExit_of_ne m ρ c main_v15 (by decide), atExit_of_ne m ρ c main_v16 (by decide),
      atExit_out m ρ c]
    refine (show iprop((((c.tc : Thread nD τ).loc main_v1) ↦{fullShare} atEntry m ρ c main_v1)
      ∗ (((c.tc : Thread nD τ).loc main_v15) ↦{fullShare.left} atEntry m ρ c main_v15)
      ∗ (((c.tc : Thread nD τ).loc main_v15) ↦{fullShare.right} atEntry m ρ c main_v15)
      ∗ (((c.tc : Thread nD τ).loc main_v16) ↦{fullShare.left} atEntry m ρ c main_v16)
      ∗ (((c.tc : Thread nD τ).loc main_v16) ↦{fullShare.right} atEntry m ρ c main_v16)
      ∗ _)
      ⊢ iprop((((c.tc : Thread nD τ).loc main_v1) ↦{fullShare} atEntry m ρ c main_v1)
      ∗ (((c.tc : Thread nD τ).loc main_v15) ↦{fullShare} atEntry m ρ c main_v15)
      ∗ (((c.tc : Thread nD τ).loc main_v16) ↦{fullShare} atEntry m ρ c main_v16)
      ∗ _) from ?_)
    iintro ⟨H1, H15l, H15r, H16l, H16r, H17⟩
    ihave H15 := (pointsTo_share (PosShare.mem_left_op_right fullShare)).2 $$ [H15l H15r]
    · isplitl [H15l] <;> iassumption
    ihave H16 := (pointsTo_share (PosShare.mem_left_op_right fullShare)).2 $$ [H16l H16r]
    · isplitl [H16l] <;> iassumption
    isplitl [H1]; · iexact H1
    isplitl [H15]; · iexact H15
    isplitl [H16]; · iexact H16
    iexact H17
  · unfold Pipeline.unscopedRest
    refine bigSep_congr fun b hb => ?_
    beta_reduce
    have hne : b ≠ main_v17 := fun e => (Finset.mem_sdiff.mp hb).2 (e ▸ Finset.mem_image.mpr ⟨5, Finset.mem_univ _, rfl⟩)
    rw [atExit_of_ne m ρ c b hne]

end Cert.Kernel.Hand

end
-- ==== Proof.KIB.Launch.lean ====
/-
  The run of the whole program, for any float instance: the host operations before the kernel, the kernel's region, the
  host operations after it.

  The program is three stretches. The first computes, on the host, the normalised weights and the scaled, transposed
  predictions and targets. The second is the kernel region over the 8 x 8 grid. The third sums the kernel's 1024 row sums
  and divides by 16. Between the stretches the core holds all of its unscoped buffers whole: before the region at the
  contents the first stretch computed, after it at the same contents except for the kernel's output array. Inside the
  region the two arrays that two windows read are each split into two half shares and joined again at the exit.
  The run ends with every unscoped buffer at the last stretch's result of the exit contents.
-/
import proofs.«115486_j74277164417458_1_alg».proof.Proof.KIB.Shares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra: the kernel has no semaphore of its own. -/
abbrev EP : Emb (UR sig nD τ) (MT nD τ sig Unit (Elt F) ℕ (UR sig nD τ) ℕ) := emb₁

/-- No core owes another anything: no level is assigned. -/
abbrev noLevels : GSem nD τ sig → Finset Unit := fun _ => ∅
abbrev levelZero : GSem nD τ sig → Unit → ℕ := fun _ _ => 0
/-- No prefetched table. -/
abbrev adm : (p : Fin 1) → (pcfgs (F := F) p).Adm := fun p => (cfgs p).toPCfg_adm

/-- What rides beside the buffers through the host stretches: the core owing nothing. -/
abbrev owesNothing (c : Dev nD) : sProp 𝕄 := iprop(∃ W, owes (c : Thread nD τ) (0 : CellTallies nD τ sig Unit) W)

/-- The stretch before the region: twenty operations over the unscoped buffers. -/
def segBefore : Pipeline.HostSeg (Name := ℕ) (U := UR sig nD τ) (pcfgs (F := F)) defs₀ Variants.none noLevels levelZero :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (atLaunch m ρ) owesNothing

/-- The stretch after the region: four operations, from the exit contents. -/
def segAfter : Pipeline.HostSeg (Name := ℕ) (U := UR sig nD τ) (pcfgs (F := F)) defs₀ Variants.none noLevels levelZero :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (atExit m ρ) owesNothing

set_option backward.isDefEq.respectTransparency.types false in
/-- The region: entered from what the first stretch left — the four windowed buffers into the pipeline (two of them
    split in halves), the other unscoped buffers bypassing —, left with the output array at its final contents. -/
def region : Pipeline.RegionSeg (pcfgs (F := F)) adm (dats m ρ) () defs₀ Variants.none noLevels levelZero 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ noLevels levelZero 0 fun _ _ => rfl
  pre c := iprop(StableHlo.held (c : Thread nD τ) (Pipeline.ucRefs τ sig) (StableHlo.after hostOps0 (atLaunch m ρ c)) ∗ owesNothing c)
  post c := iprop(StableHlo.held (c : Thread nD τ) (Pipeline.ucRefs τ sig) (atExit m ρ c) ∗ owesNothing c)
  X _ := iprop(emp)
  Y _ := iprop(emp)
  Z c := Pipeline.unscopedRest spec0 c (atEntry m ρ c)
  hentry c := by
    rw [show StableHlo.held (c : Thread nD τ) (Pipeline.ucRefs τ sig) (StableHlo.after hostOps0 (atLaunch m ρ c)) = unscopedBufs c (atEntry m ρ c) from (Pipeline.unscopedBufs_held c _).symm,
      Pipeline.ownSems0_none, Pipeline.unscopedBufs_split₀ cfgs (0 : Fin 1) winFacts₀0.arr_unscoped c (atEntry m ρ c)]
    iintro ⟨⟨⟨Hab, Hur⟩, HO⟩, -, -⟩
    ihave Ha := (entry_arrays m ρ c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (atExit m ρ c) = unscopedBufs c (fun b => atExit m ρ c b) from (Pipeline.unscopedBufs_held c _).symm]
    iintro ⟨Ha, HO, -, HZ⟩
    imodintro
    isplitr [HO]
    · iapply (exit_arrays m ρ c); isplitl [Ha] <;> iassumption
    · unfold Pipeline.Dat.owesAt Pipeline.owesWithin
      icases HO with ⟨%W, -, HO⟩; iexists W; iexact HO

/-- The program as the list of the three. -/
abbrev segs : List (Pipeline.Seg (pcfgs (F := F)) adm (dats m ρ) () defs₀ Variants.none noLevels levelZero) :=
  [.host (segBefore m ρ), .region (region m ρ), .host (segAfter m ρ)]

/-- Where every unscoped buffer of every core ends: at the last stretch's result of the exit contents. -/
def endsAt : PUnit × MemSt nD τ sig (Elt F) → Prop := fun r =>
  ∀ c : Dev nD, ∀ b ∈ Pipeline.ucRefs τ sig, r.2.mem (((c : Thread nD τ).1, b)) = StableHlo.after hostOps1 (atExit m ρ c) b

set_option backward.isDefEq.respectTransparency.types false in
/-- From any memory with zero counters, every weakly fair execution of the program terminates without a fault, and
    every unscoped buffer ends where `endsAt` says. -/
theorem run_main : θ_run defs (onTc (τ := τ) (main (F := F))) (s₀ m ρ) (endsAt m ρ) :=
  Pipeline.θ_run_regions_kit (pcfgs (F := F)) adm (dats m ρ) () cellOf_inj EP defs₀ Variants.none noLevels levelZero m ρ main (segs m ρ)
    (fun c Q => by rw [main_segs adm (dats m ρ) () Variants.none noLevels levelZero (segBefore m ρ) (segAfter m ρ) (region m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ owesNothing c))
    (Tₙ := fun c => StableHlo.held (c : Thread nD τ) (Pipeline.ucRefs τ sig) (StableHlo.after hostOps1 (atExit m ρ c)))
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (atLaunch m ρ c) from Pipeline.unscopedBufs_held c (atLaunch m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ).1, b)) = StableHlo.after hostOps1 (atExit m ρ c) b)
    (hfin := fun c s' => by
      unfold StableHlo.held
      iintro ⟨Hh, HSI⟩
      ihave Hr := (pointsTo_read_all (Pipeline.ucRefs τ sig) (fun b => (((c : Thread nD τ).1, b) : Loc nD τ sig)) (StableHlo.after hostOps1 (atExit m ρ c)) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.KIB.Frame.lean ====
/-
  What the run says of the argument arrays and of the result.

  No host operation of either stretch writes an argument array, and no window of the kernel is on one; so each of the
  four ends as launched. The result scalar ends at the last stretch's value of the exit contents: the sum of the output
  array's 1024 entries, divided by 16.
-/
import proofs.«115486_j74277164417458_1_alg».proof.Proof.KIB.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_unscoped (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by rw [hb]; exact Bool.false_ne_true⟩

/-- Argument 0 ends as launched. -/
theorem arg0_kept (c : Dev nD) :
    StableHlo.after hostOps1 (atExit m ρ c) (Proc.devRef .tc main_arg0) = m ((c.tc : Thread nD τ).loc main_arg0) := by
  after_results
  rw [atExit_of_ne m ρ c main_arg0 (by decide)]
  show StableHlo.after hostOps0 (atLaunch m ρ c) (Proc.devRef .tc main_arg0) = _
  after_results

/-- Argument 1 ends as launched. -/
theorem arg1_kept (c : Dev nD) :
    StableHlo.after hostOps1 (atExit m ρ c) (Proc.devRef .tc main_arg1) = m ((c.tc : Thread nD τ).loc main_arg1) := by
  after_results
  rw [atExit_of_ne m ρ c main_arg1 (by decide)]
  show StableHlo.after hostOps0 (atLaunch m ρ c) (Proc.devRef .tc main_arg1) = _
  after_results

/-- Argument 2 ends as launched. -/
theorem arg2_kept (c : Dev nD) :
    StableHlo.after hostOps1 (atExit m ρ c) (Proc.devRef .tc main_arg2) = m ((c.tc : Thread nD τ).loc main_arg2) := by
  after_results
  rw [atExit_of_ne m ρ c main_arg2 (by decide)]
  show StableHlo.after hostOps0 (atLaunch m ρ c) (Proc.devRef .tc main_arg2) = _
  after_results

/-- Argument 3 ends as launched. -/
theorem arg3_kept (c : Dev nD) :
    StableHlo.after hostOps1 (atExit m ρ c) (Proc.devRef .tc main_arg3) = m ((c.tc : Thread nD τ).loc main_arg3) := by
  after_results
  rw [atExit_of_ne m ρ c main_arg3 (by decide)]
  show StableHlo.after hostOps0 (atLaunch m ρ c) (Proc.devRef .tc main_arg3) = _
  after_results

/-- The frame: the program runs to the end without a fault and its four argument arrays end unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_arg0 (by decide))).trans (arg0_kept m ρ c),
     (h c _ (mem_unscoped main_arg1 (by decide))).trans (arg1_kept m ρ c),
     (h c _ (mem_unscoped main_arg2 (by decide))).trans (arg2_kept m ρ c),
     (h c _ (mem_unscoped main_arg3 (by decide))).trans (arg3_kept m ρ c)⟩) (run_main m ρ)

/-- The run with the result named: the scalar the last stretch computes from the exit contents. -/
theorem result_run : θ_run defs (onTc (τ := τ) (main (F := F))) ⟨m, fun _ => 0, ρ⟩ (fun r => ∀ c : Dev nD,
      r.2.mem ((c.tc : Thread nD τ).loc main_v19) = StableHlo.after hostOps1 (atExit m ρ c) (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_unscoped main_v19 (by decide)),
     (h c _ (mem_unscoped main_arg0 (by decide))).trans (arg0_kept m ρ c),
     (h c _ (mem_unscoped main_arg1 (by decide))).trans (arg1_kept m ρ c),
     (h c _ (mem_unscoped main_arg2 (by decide))).trans (arg2_kept m ρ c),
     (h c _ (mem_unscoped main_arg3 (by decide))).trans (arg3_kept m ρ c)⟩) (run_main m ρ)

end Cert.Kernel.Hand

end
-- ==== Proof.KI.BodyRuns.lean ====
/-
  The kernel body of the pairwise fourth-power score, run symbolically at one grid point.

  The grid is 8 x 8: the first coordinate picks the 128 rows l1 of the output block, the second the 128 columns l2 that
  are summed at this point. The body branches once, on the second coordinate being zero: there it first overwrites the
  output block with zeros. In both cases it then loads the weight vector and the four input blocks (the two row blocks and
  the two column blocks of the scaled predictions and targets), loads the output block, and stores the output block plus
  this point's row sums. What the output block's buffer ends with is recorded as the list of stores applied to it, last
  first: two stores where the block is reset, one store elsewhere.
-/
import proofs.«115486_j74277164417458_1_alg».proof.Proof.Gen.KernelIdeal.Launch
import proofs.«115486_j74277164417458_1_alg».proof.Proof.Gen.KernelIdeal.Skeleton
import proofs.«115486_j74277164417458_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the column-block coordinate is zero (the chain of integer comparisons the body
    evaluates on the second grid coordinate). -/
abbrev colZero (i : grid0.Coords) : Prop :=
  (Scalar.cmpi .ne (Scalar.extui (Scalar.cmpi .eq (BitVec.ofNat 32 (i 1).val) 0#32)) 0#32) = 1#1

/-- Over the 64 grid points in row-major order the column-block coordinate is zero exactly at the multiples of 8. -/
theorem colZero_iff : ∀ t : Fin cfg0.N, colZero (grid0.coords t) ↔ t.val % 8 = 0 :=
  (by decide +kernel : ∀ t : Fin grid0.N, colZero (grid0.coords t) ↔ t.val % 8 = 0)

set_option maxHeartbeats 1000000 in
/-- The body where the column block is the first of its row: the output buffer may hold anything; it ends with the zero
    store and then the accumulating store written into it. The inputs' buffers are only read. -/
noncomputable def runReset (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) :
    { L : List (View.Piece (Elt F) S128 .f32) //
      ∀ (E : Set ℕ) (K : PUnit → sProp 𝕄),
        iprop(owns (c : Thread nD τ) a2 fullShare w ∗ owns (c : Thread nD τ) a3 fullShare pr ∗ owns (c : Thread nD τ) a4 fullShare pc
            ∗ owns (c : Thread nD τ) a5 fullShare tr ∗ owns (c : Thread nD τ) a6 fullShare tc ∗ (∃ d, owns (c : Thread nD τ) a7 fullShare d)
            ∗ (iprop(owns (c : Thread nD τ) a2 fullShare w ∗ owns (c : Thread nD τ) a3 fullShare pr ∗ owns (c : Thread nD τ) a4 fullShare pc
                ∗ owns (c : Thread nD τ) a5 fullShare tr ∗ owns (c : Thread nD τ) a6 fullShare tc
                ∗ (∃ f, a7.view.loc (c : Thread nD τ) ↦[a7.view.set]{fullShare} a7.view.writes (Elt F) f L)) -∗ K ⟨⟩))
          ⊢ wp frame (wpE (defs₀ (F := F)) Variants.none c none) E (cc0__vs_kernel i a2 h2 a3 h3 a4 h4 a5 h5 a6 h6 a7 h7) K } := by
  refine ⟨?_, fun E K => ?run⟩
  case run =>
    simp only [cc0__vs_kernel_eq_skeleton]; unfold cc0__vs_kernel_skel
    simp only [k0_part1_eq_skeleton]
    unfold owns
    iintro ⟨⟨%f2, %e2, H2⟩, ⟨%f3, %e3, H3⟩, ⟨%f4, %e4, H4⟩, ⟨%f5, %e5, H5⟩, ⟨%f6, %e6, H6⟩, ⟨%d7, %f7, -, H7⟩, Hk⟩
    obtain rfl := h2.eq_unread e2; obtain rfl := h3.eq_unread e3; obtain rfl := h4.eq_unread e4
    obtain rfl := h5.eq_unread e5; obtain rfl := h6.eq_unread e6
    sl_exec (disch := first | exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

set_option maxHeartbeats 1000000 in
/-- The body at a later column block of the row: the output buffer holds the running sums `acc`; it ends with the one
    accumulating store written into it. -/
noncomputable def runAdd (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) :
    { L : List (View.Piece (Elt F) S128 .f32) //
      ∀ (E : Set ℕ) (K : PUnit → sProp 𝕄),
        iprop(owns (c : Thread nD τ) a2 fullShare w ∗ owns (c : Thread nD τ) a3 fullShare pr ∗ owns (c : Thread nD τ) a4 fullShare pc
            ∗ owns (c : Thread nD τ) a5 fullShare tr ∗ owns (c : Thread nD τ) a6 fullShare tc ∗ owns (c : Thread nD τ) a7 fullShare acc
            ∗ (iprop(owns (c : Thread nD τ) a2 fullShare w ∗ owns (c : Thread nD τ) a3 fullShare pr ∗ owns (c : Thread nD τ) a4 fullShare pc
                ∗ owns (c : Thread nD τ) a5 fullShare tr ∗ owns (c : Thread nD τ) a6 fullShare tc
                ∗ (∃ f, a7.view.loc (c : Thread nD τ) ↦[a7.view.set]{fullShare} a7.view.writes (Elt F) f L)) -∗ K ⟨⟩))
          ⊢ wp frame (wpE (defs₀ (F := F)) Variants.none c none) E (cc0__vs_kernel i a2 h2 a3 h3 a4 h4 a5 h5 a6 h6 a7 h7) K } := by
  refine ⟨?_, fun E K => ?run⟩
  case run =>
    simp only [cc0__vs_kernel_eq_skeleton]; unfold cc0__vs_kernel_skel
    simp only [k0_part1_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, Hk⟩
    obtain rfl := h2.eq_unread e2; obtain rfl := h3.eq_unread e3; obtain rfl := h4.eq_unread e4
    obtain rfl := h5.eq_unread e5; obtain rfl := h6.eq_unread e6; obtain rfl := h7.eq_unread e7
    sl_exec (disch := first | exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.KernelIdeal.Hand

end
-- ==== Proof.KI.PointData.lean ====
/-
  The proof data of the one pipeline: what every window's staging buffer holds after the body at every grid point.

  The five input windows only lend their blocks: after the body each still holds the block of its array at the point's
  block index — the weight vector whole, the row blocks at the first grid coordinate, the column blocks at the second.
  The output window's buffer carries the running row sums of the current row of the grid: at the first column block it is
  what the resetting run leaves, at each later one what the accumulating run leaves over the previous point's contents.
  The output block is written back to its array only after the last column block of a row, so between two points of one
  row the buffer is found as it was left.
-/
import proofs.«115486_j74277164417458_1_alg».proof.Proof.KI.BodyRuns
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation of the host operations; -/
abbrev atLaunch (c : Dev nD) : Valuation τ sig (Elt F) := fun b => (s₀ m ρ).mem ((c : Dev nD), b)
/-- and when the region is entered: the twenty host operations before it have run. -/
abbrev atEntry (c : Dev nD) (b : Ref sig .tc) : Buf (Elt F) ((c : Thread nD τ).loc b) := StableHlo.after hostOps0 (atLaunch m ρ c) b

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m ρ c (Pipeline.arrRef spec0 w))

/-! ## The staging memrefs the pipeline calls the body with -/

abbrev buf0 (t : Fin cfg0.N) := win0_0.stage (cfg0.slots t 0)
abbrev whole0 (t : Fin cfg0.N) : (buf0 t).IsWhole := hstage0_0 ((cfg0.slots t 0).cast nbuf0_0)
abbrev buf1 (t : Fin cfg0.N) := win0_1.stage (cfg0.slots t 1)
abbrev whole1 (t : Fin cfg0.N) : (buf1 t).IsWhole := hstage0_1 ((cfg0.slots t 1).cast nbuf0_1)
abbrev buf2 (t : Fin cfg0.N) := win0_2.stage (cfg0.slots t 2)
abbrev whole2 (t : Fin cfg0.N) : (buf2 t).IsWhole := hstage0_2 ((cfg0.slots t 2).cast nbuf0_2)
abbrev buf3 (t : Fin cfg0.N) := win0_3.stage (cfg0.slots t 3)
abbrev whole3 (t : Fin cfg0.N) : (buf3 t).IsWhole := hstage0_3 ((cfg0.slots t 3).cast nbuf0_3)
abbrev buf4 (t : Fin cfg0.N) := win0_4.stage (cfg0.slots t 4)
abbrev whole4 (t : Fin cfg0.N) : (buf4 t).IsWhole := hstage0_4 ((cfg0.slots t 4).cast nbuf0_4)
abbrev buf5 (t : Fin cfg0.N) := win0_5.stage (cfg0.slots t 5)
abbrev whole5 (t : Fin cfg0.N) : (buf5 t).IsWhole := hstage0_5 ((cfg0.slots t 5).cast nbuf0_5)

/-- One staging buffer of the output window, through which its contents are stated (which one does not matter). -/
abbrev outView : View sig .tc .vmem S128 .f32 := (Memref.whole cc0_stg5_0 : Memref sig .tc .vmem S128 .f32).view

/-! ## What each case leaves in the output buffer -/

/-- The stores of the resetting case cover the whole 128-entry block. -/
theorem resetCovers (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) (y : S128.Idx) :
    ∃ p ∈ (runReset c i a2 h2 a3 h3 a4 h4 a5 h5 a6 h6 a7 h7 hc w pr pc tr tc).1, y ∈ p.1.set :=
  View.cover_of_tiledL (runReset c i a2 h2 a3 h3 a4 h4 a5 h5 a6 h6 a7 h7 hc w pr pc tr tc).1 S128.size (by sl_kernel_rfl) y

/-- The output block after the resetting case: its stores read back. -/
def afterReset (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) : Vec F S128 .f32 :=
  outView.read (Elt F) (outView.writes (Elt F) outView.junk (runReset c i a2 h2 a3 h3 a4 h4 a5 h5 a6 h6 a7 h7 hc w pr pc tr tc).1)

/-- The store of the accumulating case covers the whole block. -/
theorem addCovers (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) (y : S128.Idx) :
    ∃ p ∈ (runAdd c i a2 h2 a3 h3 a4 h4 a5 h5 a6 h6 a7 h7 hc w pr pc tr tc acc).1, y ∈ p.1.set :=
  View.cover_of_tiledL (runAdd c i a2 h2 a3 h3 a4 h4 a5 h5 a6 h6 a7 h7 hc w pr pc tr tc acc).1 S128.size (by sl_kernel_rfl) y

/-- The output block after the accumulating case, over the running sums `acc`. -/
def afterAdd (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) : Vec F S128 .f32 :=
  outView.read (Elt F) (outView.writes (Elt F) outView.junk (runAdd c i a2 h2 a3 h3 a4 h4 a5 h5 a6 h6 a7 h7 hc w pr pc tr tc acc).1)

/-! ## The running row sums, point by point -/

/-- What the output window's buffer holds after the body at position `n` of the grid: reset at the multiples of 8, else
    accumulated over what position `n - 1` left. -/
def accAt (c : Dev nD) : (n : ℕ) → n < cfg0.N → Vec F S128 .f32
  | 0, hn => afterReset c (grid0.coords ⟨0, hn⟩) (buf0 ⟨0, hn⟩) (whole0 ⟨0, hn⟩) (buf1 ⟨0, hn⟩) (whole1 ⟨0, hn⟩) (buf2 ⟨0, hn⟩) (whole2 ⟨0, hn⟩) (buf3 ⟨0, hn⟩) (whole3 ⟨0, hn⟩) (buf4 ⟨0, hn⟩) (whole4 ⟨0, hn⟩) (buf5 ⟨0, hn⟩) (whole5 ⟨0, hn⟩) ((colZero_iff ⟨0, hn⟩).mpr (Nat.zero_mod _))
      (blockAt m ρ c 0 ⟨0, hn⟩) (blockAt m ρ c 1 ⟨0, hn⟩) (blockAt m ρ c 2 ⟨0, hn⟩) (blockAt m ρ c 3 ⟨0, hn⟩) (blockAt m ρ c 4 ⟨0, hn⟩)
  | n + 1, hn =>
    if h0 : (n + 1) % 8 = 0 then
      afterReset c (grid0.coords ⟨n + 1, hn⟩) (buf0 ⟨n + 1, hn⟩) (whole0 ⟨n + 1, hn⟩) (buf1 ⟨n + 1, hn⟩) (whole1 ⟨n + 1, hn⟩) (buf2 ⟨n + 1, hn⟩) (whole2 ⟨n + 1, hn⟩) (buf3 ⟨n + 1, hn⟩) (whole3 ⟨n + 1, hn⟩) (buf4 ⟨n + 1, hn⟩) (whole4 ⟨n + 1, hn⟩) (buf5 ⟨n + 1, hn⟩) (whole5 ⟨n + 1, hn⟩) ((colZero_iff ⟨n + 1, hn⟩).mpr h0)
        (blockAt m ρ c 0 ⟨n + 1, hn⟩) (blockAt m ρ c 1 ⟨n + 1, hn⟩) (blockAt m ρ c 2 ⟨n + 1, hn⟩) (blockAt m ρ c 3 ⟨n + 1, hn⟩) (blockAt m ρ c 4 ⟨n + 1, hn⟩)
    else
      afterAdd c (grid0.coords ⟨n + 1, hn⟩) (buf0 ⟨n + 1, hn⟩) (whole0 ⟨n + 1, hn⟩) (buf1 ⟨n + 1, hn⟩) (whole1 ⟨n + 1, hn⟩) (buf2 ⟨n + 1, hn⟩) (whole2 ⟨n + 1, hn⟩) (buf3 ⟨n + 1, hn⟩) (whole3 ⟨n + 1, hn⟩) (buf4 ⟨n + 1, hn⟩) (whole4 ⟨n + 1, hn⟩) (buf5 ⟨n + 1, hn⟩) (whole5 ⟨n + 1, hn⟩) (fun h => h0 ((colZero_iff ⟨n + 1, hn⟩).mp h))
        (blockAt m ρ c 0 ⟨n + 1, hn⟩) (blockAt m ρ c 1 ⟨n + 1, hn⟩) (blockAt m ρ c 2 ⟨n + 1, hn⟩) (blockAt m ρ c 3 ⟨n + 1, hn⟩) (blockAt m ρ c 4 ⟨n + 1, hn⟩)
        (accAt c n (Nat.lt_of_succ_lt hn))

theorem accAt_reset (c : Dev nD) (t : Fin cfg0.N) (h0 : t.val % 8 = 0) :
    accAt m ρ c t.val t.isLt = afterReset c (grid0.coords t) (buf0 t) (whole0 t) (buf1 t) (whole1 t) (buf2 t) (whole2 t) (buf3 t) (whole3 t) (buf4 t) (whole4 t) (buf5 t) (whole5 t) ((colZero_iff t).mpr h0)
      (blockAt m ρ c 0 t) (blockAt m ρ c 1 t) (blockAt m ρ c 2 t) (blockAt m ρ c 3 t) (blockAt m ρ c 4 t) := by
  obtain ⟨n, hn⟩ := t
  cases n with
  | zero => exact rfl
  | succ n => exact (dif_pos h0).trans rfl

theorem accAt_add (c : Dev nD) (t : Fin cfg0.N) (h0 : ¬t.val % 8 = 0) :
    accAt m ρ c t.val t.isLt = afterAdd c (grid0.coords t) (buf0 t) (whole0 t) (buf1 t) (whole1 t) (buf2 t) (whole2 t) (buf3 t) (whole3 t) (buf4 t) (whole4 t) (buf5 t) (whole5 t) (fun h => h0 ((colZero_iff t).mp h))
      (blockAt m ρ c 0 t) (blockAt m ρ c 1 t) (blockAt m ρ c 2 t) (blockAt m ρ c 3 t) (blockAt m ρ c 4 t)
      (accAt m ρ c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The two windows on the scaled predictions each hold half of that array's share, and likewise the two on the scaled
    targets; the weight vector's window holds its array whole. -/
def dats (_ : Fin 1) (c : Dev nD) : Dat τ (Elt F) Unit ℕ (UR sig nD τ) ℕ cfg0 c where
  A w := atEntry m ρ c (Pipeline.arrRef spec0 w)
  after w t := match w with
    | ⟨0, _⟩ => blockAt m ρ c 0 t
    | ⟨1, _⟩ => blockAt m ρ c 1 t
    | ⟨2, _⟩ => blockAt m ρ c 2 t
    | ⟨3, _⟩ => blockAt m ρ c 3 t
    | ⟨4, _⟩ => blockAt m ρ c 4 t
    | ⟨5, _⟩ => accAt m ρ c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq (c : Dev nD) (w : Fin cfg0.W) : (dats m ρ 0 c).A w = atEntry m ρ c (Pipeline.arrRef spec0 w) := by
  dsimp only [dats]

theorem after_0 (c : Dev nD) (t : Fin cfg0.N) : (dats m ρ 0 c).after 0 t = blockAt m ρ c 0 t := by dsimp only [dats]
theorem after_1 (c : Dev nD) (t : Fin cfg0.N) : (dats m ρ 0 c).after 1 t = blockAt m ρ c 1 t := by dsimp only [dats]
theorem after_2 (c : Dev nD) (t : Fin cfg0.N) : (dats m ρ 0 c).after 2 t = blockAt m ρ c 2 t := by dsimp only [dats]
theorem after_3 (c : Dev nD) (t : Fin cfg0.N) : (dats m ρ 0 c).after 3 t = blockAt m ρ c 3 t := by dsimp only [dats]
theorem after_4 (c : Dev nD) (t : Fin cfg0.N) : (dats m ρ 0 c).after 4 t = blockAt m ρ c 4 t := by dsimp only [dats]
theorem after_5 (c : Dev nD) (t : Fin cfg0.N) : (dats m ρ 0 c).after 5 t = accAt m ρ c t.val t.isLt := by dsimp only [dats]

/-- Input window 0's current buffer holds its block at every point, fetched there or not. -/
theorem before_0 (c : Dev nD) (t : Fin cfg0.N) (d) : (dats m ρ 0 c).before 0 t d = blockAt m ρ c 0 t :=
  ((dats m ρ 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
/-- Input window 1's current buffer holds its block at every point, fetched there or not. -/
theorem before_1 (c : Dev nD) (t : Fin cfg0.N) (d) : (dats m ρ 0 c).before 1 t d = blockAt m ρ c 1 t :=
  ((dats m ρ 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
/-- Input window 2's current buffer holds its block at every point, fetched there or not. -/
theorem before_2 (c : Dev nD) (t : Fin cfg0.N) (d) : (dats m ρ 0 c).before 2 t d = blockAt m ρ c 2 t :=
  ((dats m ρ 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
/-- Input window 3's current buffer holds its block at every point, fetched there or not. -/
theorem before_3 (c : Dev nD) (t : Fin cfg0.N) (d) : (dats m ρ 0 c).before 3 t d = blockAt m ρ c 3 t :=
  ((dats m ρ 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
/-- Input window 4's current buffer holds its block at every point, fetched there or not. -/
theorem before_4 (c : Dev nD) (t : Fin cfg0.N) (d) : (dats m ρ 0 c).before 4 t d = blockAt m ρ c 4 t :=
  ((dats m ρ 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)

/-- At a later column block of a row the output window's buffer holds what the body left at the point before. -/
theorem before_5_add (c : Dev nD) (t : Fin cfg0.N) (h0 : ¬t.val % 8 = 0) (d) :
    (dats m ρ 0 c).before 5 t d = accAt m ρ c (t.val - 1) (Nat.lt_of_le_of_lt (Nat.sub_le _ _) t.isLt) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (buf0 t) fullShare ((dats m ρ 0 c).before 0 t d))
    ∗ (∃ d, owns (c : Thread nD τ) (buf1 t) fullShare ((dats m ρ 0 c).before 1 t d))
    ∗ (∃ d, owns (c : Thread nD τ) (buf2 t) fullShare ((dats m ρ 0 c).before 2 t d))
    ∗ (∃ d, owns (c : Thread nD τ) (buf3 t) fullShare ((dats m ρ 0 c).before 3 t d))
    ∗ (∃ d, owns (c : Thread nD τ) (buf4 t) fullShare ((dats m ρ 0 c).before 4 t d))
    ∗ (∃ d, owns (c : Thread nD τ) (buf5 t) fullShare ((dats m ρ 0 c).before 5 t d)))

def bodyPost (c : Dev nD) (t : Fin cfg0.N) : sProp 𝕄 :=
  iprop((dats m ρ 0 c).Φ t.succ ∗ (dats m ρ 0 c).owesAt () t.succ
    ∗ owns (c : Thread nD τ) (buf0 t) fullShare ((dats m ρ 0 c).after 0 t)
    ∗ owns (c : Thread nD τ) (buf1 t) fullShare ((dats m ρ 0 c).after 1 t)
    ∗ owns (c : Thread nD τ) (buf2 t) fullShare ((dats m ρ 0 c).after 2 t)
    ∗ owns (c : Thread nD τ) (buf3 t) fullShare ((dats m ρ 0 c).after 3 t)
    ∗ owns (c : Thread nD τ) (buf4 t) fullShare ((dats m ρ 0 c).after 4 t)
    ∗ owns (c : Thread nD τ) (buf5 t) fullShare ((dats m ρ 0 c).after 5 t))

set_option maxHeartbeats 1600000 in
/-- The body at any point: the inputs' buffers hold their blocks; the point is the first column block of its row or not;
    in the second case the output buffer holds the previous point's sums; the case's run applies; the invariant and the
    (empty) debts pass through. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5]
  by_cases h0 : t.val % 8 = 0
  · rw [accAt_reset m ρ c t h0]
    unfold afterReset
    iintro ⟨HΦ, Ho, ⟨%d0, H0⟩, ⟨%d1, H1⟩, ⟨%d2, H2⟩, ⟨%d3, H3⟩, ⟨%d4, H4⟩, ⟨%d5, H5⟩⟩
    iapply ((runReset c (grid0.coords t) _ _ _ _ _ _ _ _ _ _ _ _ ((colZero_iff t).mpr h0)
      (blockAt m ρ c 0 t) (blockAt m ρ c 1 t) (blockAt m ρ c 2 t) (blockAt m ρ c 3 t) (blockAt m ρ c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (resetCovers c _ _ _ _ _ _ _ _ _ _ _ _ _ _ _ _ _ _ _)
  · rw [accAt_add m ρ c t h0]
    simp only [before_5_add m ρ c t h0]
    unfold afterAdd
    iintro ⟨HΦ, Ho, ⟨%d0, H0⟩, ⟨%d1, H1⟩, ⟨%d2, H2⟩, ⟨%d3, H3⟩, ⟨%d4, H4⟩, ⟨%d5, H5⟩⟩
    iapply ((runAdd c (grid0.coords t) _ _ _ _ _ _ _ _ _ _ _ _ (fun h => h0 ((colZero_iff t).mp h))
      (blockAt m ρ c 0 t) (blockAt m ρ c 1 t) (blockAt m ρ c 2 t) (blockAt m ρ c 3 t) (blockAt m ρ c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (addCovers c _ _ _ _ _ _ _ _ _ _ _ _ _ _ _ _ _ _ _ _)

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KI.RowSums.lean ====
/-
  The running row sums as values.

  What the accumulating case leaves in the output block is the payload of its one store: the previous contents plus this
  point's row sums. What the resetting case leaves is the same payload over the zero block it has just stored and read
  back. So the output buffer after the body at a grid point is a fold over the points of the current grid row, starting
  from the zero block at the row's first point.
-/
import proofs.«115486_j74277164417458_1_alg».proof.Proof.KI.PointData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off1 : (![0] : Fin 1 → Nat) = fun _ => 0 := funext fun a => by fin_cases a <;> rfl
theorem off3 : (![0, 0, 0] : Fin 3 → Nat) = fun _ => 0 := funext fun a => by fin_cases a <;> rfl

/-- One grid point's contribution added to `acc`: the store's payload over the loaded blocks. -/
abbrev pointStep (w : Vec F S16 .f32) (pr pc tr tc : Vec F S16x4x128 .f32) (acc : Vec F S128 .f32) : Vec F S128 .f32 :=
  k0_pay1 (k0_pay3 pr pc tr tc) (k0_pay4 w) acc

/-- The accumulating case leaves the previous sums plus this point's. -/
theorem afterAdd_eq (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : ¬colZero i)
    (w : Vec F S16 .f32) (pr pc tr tc : Vec F S16x4x128 .f32) (acc : Vec F S128 .f32) :
    afterAdd c i a2 h2 a3 h3 a4 h4 a5 h5 a6 h6 a7 h7 hc w pr pc tr tc acc = pointStep w pr pc tr tc acc := by
  unfold afterAdd
  rw [View.read_writes_eq_canon _ _ _ (addCovers c i a2 h2 a3 h3 a4 h4 a5 h5 a6 h6 a7 h7 hc w pr pc tr tc acc)]
  unfold runAdd
  dsimp only
  sl_unfold_words
  rw [View.canon_unit_zero off1]
  simp only [View.readAt_eq_ld, h2.read_unread, h3.read_unread, h4.read_unread, h5.read_unread, h6.read_unread, h7.read_unread,
    View.ld_unit_zero (S := S128) off1, View.ld_unit_zero (S := S16) off1, View.ld_unit_zero (S := S16x4x128) off3]

/-- The resetting case leaves this point's sums over the zero block. -/
theorem afterReset_eq (c : Dev nD) (i : grid0.Coords) (a2 : Memref sig .tc .vmem S16 .f32) (h2 : a2.IsWhole) (a3 : Memref sig .tc .vmem S16x4x128 .f32) (h3 : a3.IsWhole) (a4 : Memref sig .tc .vmem S16x4x128 .f32) (h4 : a4.IsWhole) (a5 : Memref sig .tc .vmem S16x4x128 .f32) (h5 : a5.IsWhole) (a6 : Memref sig .tc .vmem S16x4x128 .f32) (h6 : a6.IsWhole) (a7 : Memref sig .tc .vmem S128 .f32) (h7 : a7.IsWhole) (hc : colZero i)
    (w : Vec F S16 .f32) (pr pc tr tc : Vec F S16x4x128 .f32) :
    afterReset c i a2 h2 a3 h3 a4 h4 a5 h5 a6 h6 a7 h7 hc w pr pc tr tc = pointStep w pr pc tr tc (k0_pay2 (F := F)) := by
  unfold afterReset
  rw [View.read_writes_eq_canon _ _ _ (resetCovers c i a2 h2 a3 h3 a4 h4 a5 h5 a6 h6 a7 h7 hc w pr pc tr tc)]
  unfold runReset
  dsimp only
  sl_unfold_words
  rw [View.canon_cons_unit_zero (S := S128) off1]
  simp only [View.readAt_eq_ld, h2.read_unread, h3.read_unread, h4.read_unread, h5.read_unread, h6.read_unread,
    View.readCov_unit_zero (S := S128) _ off1,
    View.ld_unit_zero (S := S128) off1, View.ld_unit_zero (S := S16) off1, View.ld_unit_zero (S := S16x4x128) off3]

/-- This point's step, on the blocks the windows hold there. -/
abbrev stepAt (c : Dev nD) (t : Fin cfg0.N) (acc : Vec F S128 .f32) : Vec F S128 .f32 :=
  pointStep (blockAt m ρ c 0 t) (blockAt m ρ c 1 t) (blockAt m ρ c 2 t) (blockAt m ρ c 3 t) (blockAt m ρ c 4 t) acc

/-- At a row's first point the buffer holds the step over zero; -/
theorem accAt_first (c : Dev nD) (t : Fin cfg0.N) (h0 : t.val % 8 = 0) :
    accAt m ρ c t.val t.isLt = stepAt m ρ c t (k0_pay2 (F := F)) := by
  rw [accAt_reset m ρ c t h0, afterReset_eq]

/-- at a later one, the step over what the point before left. -/
theorem accAt_next (c : Dev nD) (t : Fin cfg0.N) (h0 : ¬t.val % 8 = 0) :
    accAt m ρ c t.val t.isLt = stepAt m ρ c t (accAt m ρ c (t.val - 1) (Nat.lt_of_le_of_lt (Nat.sub_le _ _) t.isLt)) := by
  rw [accAt_add m ρ c t h0, afterAdd_eq]

end Cert.KernelIdeal.Hand

end
-- ==== Proof.LibExtendedRealLaws.lean ====
/-
  General laws of arithmetic on the extended reals (Mathlib's `EReal`), as the ideal float instance uses them.

  * `square_nonneg`: a square `x * x` is never negative, at the infinities too (the product of two infinities of one sign is
    `+∞`).
  * `sum_mul_of_nonneg`: a finite sum of non-negative extended reals times any factor is the sum of the products.
    Distributivity fails on the extended reals in general (`(+∞ + -∞) * c`); among non-negative terms it holds.
  * `pow_abs_four`: the power function at exponent `4` of an absolute value `max d (-d)` is `(d * d) * (d * d)` at every
    extended real — on a real because `|d| ^ 4 = d ^ 4`, at either infinity because both sides are `+∞`.
  * `four_bits`: the f32 word `0x40800000` denotes the real number four.
-/
import Idealize.ShloMosaic.PureOps.Ideal

noncomputable section

namespace Cert.ExtendedRealLaws

open Idealize.ShloMosaic

/-- The word `0x40800000` is the real number four. -/
theorem four_bits : Ideal.ofBits .f32 0x40800000#32 = ((4 : ℝ) : EReal) := by
  simp [Ideal.ofBits, Ideal.ieee, -EReal.coe_mul]; norm_num

/-- A square is non-negative on all of the extended reals. -/
theorem square_nonneg (x : EReal) : 0 ≤ x * x := by
  refine EReal.rec ?_ (fun r => ?_) ?_ x
  · simp
  · rw [← EReal.coe_mul]; exact_mod_cast mul_self_nonneg r
  · simp

/-- Non-negative terms: the factor moves inside the sum. -/
theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self _ _))
        (Finset.sum_nonneg fun i hi => hf i (Finset.mem_insert_of_mem hi)),
      ih fun i hi => hf i (Finset.mem_insert_of_mem hi)]

/-- `|d| ^ 4` by the power function is `(d * d) * (d * d)`, at the infinities too. -/
theorem pow_abs_four (d : EReal) : Ideal.pow (max d (-d)) ((4 : ℝ) : EReal) = (d * d) * (d * d) := by
  refine EReal.rec ?_ (fun r => ?_) ?_ d
  · have h4 : (0 : EReal) < ((4 : ℝ) : EReal) := by exact_mod_cast (by norm_num : (0 : ℝ) < 4)
    simp [h4]
  · have hmax : max (r : EReal) (-(r : EReal)) = ((|r| : ℝ) : EReal) := by
      rw [← EReal.coe_neg]
      rcases le_total r (-r) with h | h
      · rw [max_eq_right (EReal.coe_le_coe_iff.mpr h), abs_of_nonpos (by linarith)]
      · rw [max_eq_left (EReal.coe_le_coe_iff.mpr h), abs_of_nonneg (by linarith)]
    rw [hmax, Ideal.pow_coe_coe]
    simp only [← EReal.coe_mul]
    congr 1
    show |r| ^ (4 : ℝ) = r * r * (r * r)
    rw [show (4 : ℝ) = ((4 : ℕ) : ℝ) by norm_num, Real.rpow_natCast, show (4 : ℕ) = 2 * 2 by rfl, pow_mul, sq_abs]
    ring
  · have h4 : (0 : EReal) < ((4 : ℝ) : EReal) := by exact_mod_cast (by norm_num : (0 : ℝ) < 4)
    simp [h4]

end Cert.ExtendedRealLaws

end
-- ==== Proof.ScoreLaws.lean ====
/-
  The score's building blocks over the extended reals, and the agreement of the two orders of summation.

  The general laws this rests on — a square is non-negative; a sum of non-negative terms times a factor distributes; the
  fourth power of an absolute value is the square of the square — are in LibExtendedRealLaws.
-/
import Idealize.ShloMosaic.PureOps.Ideal
import proofs.«115486_j74277164417458_1_alg».proof.Proof.LibExtendedRealLaws

noncomputable section

namespace Cert.ScoreLaws

open Idealize.ShloMosaic Cert.ExtendedRealLaws

/-! ## The score's building blocks

`a`, `b` are the four ensemble members' values of one feature at two places. -/

/-- The square of the square. -/
def quart (d : EReal) : EReal := (d * d) * (d * d)

/-- The mean over the four ensemble members of the fourth power of the difference between two places. -/
def qmean (a b : Fin 4 → EReal) : EReal :=
  Ideal.div (∑ e : Fin 4, quart (a e - b e)) (Ideal.ofBits .f32 0x40800000#32)

/-- One (feature, place, place) cell of the score: the squared difference of the targets' and the predictions' means. -/
def cell (pa pb ta tb : Fin 4 → EReal) : EReal := (qmean ta tb - qmean pa pb) * (qmean ta tb - qmean pa pb)

theorem cell_nonneg (pa pb ta tb : Fin 4 → EReal) : 0 ≤ cell pa pb ta tb := square_nonneg _

/-- The reference's form of the fourth power: the power function at `4.0` of the absolute value. -/
theorem pow_abs_four_bits (d : EReal) : Ideal.pow (max d (-d)) (Ideal.ofBits .f32 0x40800000#32) = quart d := by
  rw [four_bits]; exact pow_abs_four d

/-! ## The two orders of summation

`P v e a`, `T v e a`: the scaled prediction and target of feature `v`, ensemble member `e`, place `a`; `W v`: the
feature's normalised weight. -/

/-- The cell of feature `v` between places `a` and `b`. -/
def cellOf (P T : Fin 16 → Fin 4 → Fin 1024 → EReal) (v : Fin 16) (a b : Fin 1024) : EReal :=
  cell (fun e => P v e a) (fun e => P v e b) (fun e => T v e a) (fun e => T v e b)

theorem cellOf_nonneg (P T : Fin 16 → Fin 4 → Fin 1024 → EReal) (v : Fin 16) (a b : Fin 1024) : 0 ≤ cellOf P T v a b :=
  cell_nonneg _ _ _ _

/-- The kernel's order: for each place `a`, the weighted cells summed over the other place and the features; then over
    `a`; each partial sum started from zero. -/
def kernelOrder (P T : Fin 16 → Fin 4 → Fin 1024 → EReal) (W : Fin 16 → EReal) : EReal :=
  0 + ∑ a : Fin 1024, (0 + ∑ b : Fin 1024, ∑ v : Fin 16, cellOf P T v a b * W v)

/-- The reference's order: for each feature, the cells summed over both places, then weighted; then over the features. -/
def referenceOrder (P T : Fin 16 → Fin 4 → Fin 1024 → EReal) (W : Fin 16 → EReal) : EReal :=
  0 + ∑ v : Fin 16, (0 + ∑ a : Fin 1024, ∑ b : Fin 1024, cellOf P T v a b) * W v

/-- The two orders give one value: sums of extended reals commute, and the weight moves across a sum of non-negative
    cells. -/
theorem orders_agree (P T : Fin 16 → Fin 4 → Fin 1024 → EReal) (W : Fin 16 → EReal) :
    kernelOrder P T W = referenceOrder P T W := by
  unfold kernelOrder referenceOrder
  simp only [zero_add]
  have h1 : ∀ v : Fin 16, (∑ a : Fin 1024, ∑ b : Fin 1024, cellOf P T v a b) * W v
      = ∑ a : Fin 1024, ∑ b : Fin 1024, cellOf P T v a b * W v := fun v => by
    rw [sum_mul_of_nonneg _ _ (fun a _ => Finset.sum_nonneg fun b _ => cellOf_nonneg P T v a b)]
    refine Finset.sum_congr rfl fun a _ => ?_
    rw [sum_mul_of_nonneg _ _ (fun b _ => cellOf_nonneg P T v a b)]
  simp only [h1]
  calc ∑ a : Fin 1024, ∑ b : Fin 1024, ∑ v : Fin 16, cellOf P T v a b * W v
      = ∑ a : Fin 1024, ∑ v : Fin 16, ∑ b : Fin 1024, cellOf P T v a b * W v :=
        Finset.sum_congr rfl fun a _ => Finset.sum_comm
    _ = ∑ v : Fin 16, ∑ a : Fin 1024, ∑ b : Fin 1024, cellOf P T v a b * W v := Finset.sum_comm

end Cert.ScoreLaws

end
-- ==== Proof.KI.PointValue.lean ====
/-
  The body's arithmetic, read at an index over the extended reals.

  A row block entry `(v, e, r)` is repeated along a new last axis, a column block entry `(v, e, l)` along a new third
  axis; their difference at `(v, e, r, l)` is taken to the fourth power by two squarings, summed over the four ensemble
  members `e` and divided by four: the mean fourth-power difference between places `r` and `l` for feature `v`. The
  squared difference of the targets' and the predictions' means is weighted by the feature's weight and summed over the
  16 features and the 128 columns `l`; the result is added to the running sums at row `r`.
-/
import proofs.«115486_j74277164417458_1_alg».proof.Proof.KI.RowSums
import proofs.«115486_j74277164417458_1_alg».proof.Proof.ScoreLaws
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.ScoreLaws

section Layout

variable {α : Type}

/-- A [16,4,128] block with a unit axis appended, repeated 128 times along it: entry `(v, e, r, l)` is the block's
    `(v, e, r)`. -/
theorem alongLast_apply (x : S16x4x128.Idx → α) (h : S16x4x128.ShapeCasts S16x4x128x1) (h' : S16x4x128x1.Broadcasts S16x4x128x128)
    (v : Fin 16) (e : Fin 4) (r l : Fin 128) :
    broadcastTo S16x4x128x128 (shapeCast S16x4x128x1 x h) h' (ix4 v e r l) = x (ix3 v e r) := by
  refine (broadcastTo_apply _ h' (ix4 v e r l) (ix4 v e r (0 : Fin 1)) (fun a => ?_)).trans ?_
  · match a with
    | ⟨0, _⟩ => show v.val = if (16 : Nat) = 1 then 0 else v.val; rw [if_neg (by decide)]
    | ⟨1, _⟩ => show e.val = if (4 : Nat) = 1 then 0 else e.val; rw [if_neg (by decide)]
    | ⟨2, _⟩ => show r.val = if (128 : Nat) = 1 then 0 else r.val; rw [if_neg (by decide)]
    | ⟨3, _⟩ => show (0 : Nat) = if (1 : Nat) = 1 then 0 else l.val; rw [if_pos rfl]
  · refine shapeCast_apply x h _ (ix3 v e r) ?_
    rw [Shape.rowMajor_val_three, Shape.rowMajor_val_four]
    show (v.val * 4 + e.val) * 128 + r.val = ((v.val * 4 + e.val) * 128 + r.val) * 1 + 0
    omega

/-- A [16,4,128] block with a unit axis inserted before its last, repeated 128 times along it: entry `(v, e, r, l)` is
    the block's `(v, e, l)`. -/
theorem alongThird_apply (x : S16x4x128.Idx → α) (h : S16x4x128.ShapeCasts S16x4x1x128) (h' : S16x4x1x128.Broadcasts S16x4x128x128)
    (v : Fin 16) (e : Fin 4) (r l : Fin 128) :
    broadcastTo S16x4x128x128 (shapeCast S16x4x1x128 x h) h' (ix4 v e r l) = x (ix3 v e l) := by
  refine (broadcastTo_apply _ h' (ix4 v e r l) (ix4 v e (0 : Fin 1) l) (fun a => ?_)).trans ?_
  · match a with
    | ⟨0, _⟩ => show v.val = if (16 : Nat) = 1 then 0 else v.val; rw [if_neg (by decide)]
    | ⟨1, _⟩ => show e.val = if (4 : Nat) = 1 then 0 else e.val; rw [if_neg (by decide)]
    | ⟨2, _⟩ => show (0 : Nat) = if (1 : Nat) = 1 then 0 else r.val; rw [if_pos rfl]
    | ⟨3, _⟩ => show l.val = if (128 : Nat) = 1 then 0 else l.val; rw [if_neg (by decide)]
  · refine shapeCast_apply x h _ (ix3 v e l) ?_
    rw [Shape.rowMajor_val_three, Shape.rowMajor_val_four]
    show (v.val * 4 + e.val) * 128 + l.val = ((v.val * 4 + e.val) * 1 + 0) * 128 + l.val
    omega

/-- The 16 weights with two unit axes appended, repeated over a 128 x 128 square: entry `(v, r, l)` is weight `v`. -/
theorem overSquare_apply (x : S16.Idx → α) (h : S16.ShapeCasts S16x1x1) (h' : S16x1x1.Broadcasts S16x128x128)
    (v : Fin 16) (r l : Fin 128) :
    broadcastTo S16x128x128 (shapeCast S16x1x1 x h) h' (ix3 v r l) = x (ix1 v) := by
  refine (broadcastTo_apply _ h' (ix3 v r l) (ix3 v (0 : Fin 1) (0 : Fin 1)) (fun a => ?_)).trans ?_
  · match a with
    | ⟨0, _⟩ => show v.val = if (16 : Nat) = 1 then 0 else v.val; rw [if_neg (by decide)]
    | ⟨1, _⟩ => show (0 : Nat) = if (1 : Nat) = 1 then 0 else r.val; rw [if_pos rfl]
    | ⟨2, _⟩ => show (0 : Nat) = if (1 : Nat) = 1 then 0 else l.val; rw [if_pos rfl]
  · refine shapeCast_apply x h _ (ix1 v) ?_
    rw [Shape.rowMajor_val_one, Shape.rowMajor_val_three]
    show v.val = (v.val * 1 + 0) * 1 + 0
    omega

end Layout

/-- A lane sum with the zero accumulator, over one axis, at the extended reals: the sum over that axis. -/
theorem laneSum {s t : Shape} {a : Fin s.rank} (src : FVec Ideal s .f32) (h : s.Reduces [a] t) (hφ : FKind.Formats .f32)
    (hacc : (0x00000000#32 : BitVec 32) = 0x00000000#32) (j : t.Idx) :
    multiReduction (F := Ideal) .add [a] t src 0x00000000#32 h hφ hacc j = ∑ k : Fin (s.size a), src (h.lift j k) :=
  Ideal.multiReduction_add_single src 0x00000000#32 h hφ hacc j

/-- The mean fourth-power difference of a row block and a column block, at feature `v`, row `r`, column `l`. -/
theorem meanQuart_apply (a b : Vec Ideal S16x4x128 .f32) (v : Fin 16) (r l : Fin 128) :
    divf (multiReduction (F := Ideal) .add [1] S16x128x128
        (mulf
          (mulf (subf (broadcastTo S16x4x128x128 (shapeCast S16x4x128x1 (shapeCast S16x4x128 a shapeCasts_S16x4x128_S16x4x128) shapeCasts_S16x4x128_S16x4x128x1) broadcasts_S16x4x128x1_S16x4x128x128)
                      (broadcastTo S16x4x128x128 (shapeCast S16x4x1x128 (shapeCast S16x4x128 b shapeCasts_S16x4x128_S16x4x128) shapeCasts_S16x4x128_S16x4x1x128) broadcasts_S16x4x1x128_S16x4x128x128))
                (subf (broadcastTo S16x4x128x128 (shapeCast S16x4x128x1 (shapeCast S16x4x128 a shapeCasts_S16x4x128_S16x4x128) shapeCasts_S16x4x128_S16x4x128x1) broadcasts_S16x4x128x1_S16x4x128x128)
                      (broadcastTo S16x4x128x128 (shapeCast S16x4x1x128 (shapeCast S16x4x128 b shapeCasts_S16x4x128_S16x4x128) shapeCasts_S16x4x128_S16x4x1x128) broadcasts_S16x4x1x128_S16x4x128x128)))
          (mulf (subf (broadcastTo S16x4x128x128 (shapeCast S16x4x128x1 (shapeCast S16x4x128 a shapeCasts_S16x4x128_S16x4x128) shapeCasts_S16x4x128_S16x4x128x1) broadcasts_S16x4x128x1_S16x4x128x128)
                      (broadcastTo S16x4x128x128 (shapeCast S16x4x1x128 (shapeCast S16x4x128 b shapeCasts_S16x4x128_S16x4x128) shapeCasts_S16x4x128_S16x4x1x128) broadcasts_S16x4x1x128_S16x4x128x128))
                (subf (broadcastTo S16x4x128x128 (shapeCast S16x4x128x1 (shapeCast S16x4x128 a shapeCasts_S16x4x128_S16x4x128) shapeCasts_S16x4x128_S16x4x128x1) broadcasts_S16x4x128x1_S16x4x128x128)
                      (broadcastTo S16x4x128x128 (shapeCast S16x4x1x128 (shapeCast S16x4x128 b shapeCasts_S16x4x128_S16x4x128) shapeCasts_S16x4x128_S16x4x1x128) broadcasts_S16x4x1x128_S16x4x128x128))))
        0x00000000#32 reduces_S16x4x128x128_S16x128x128 (.inl rfl) rfl)
      (broadcast S16x128x128 (Scalar.ofBits (F := Ideal) .f32 0x40800000#32)) (ix3 v r l)
      = qmean (fun e => a (ix3 v e r)) (fun e => b (ix3 v e l)) := by
  rw [shapeCast_self, shapeCast_self]
  show Ideal.div (multiReduction (F := Ideal) .add [1] S16x128x128 _ 0x00000000#32 reduces_S16x4x128x128_S16x128x128 (.inl rfl) rfl (ix3 v r l))
    (Ideal.ofBits .f32 0x40800000#32) = _
  refine (congrArg (Ideal.div · _) (laneSum _ reduces_S16x4x128x128_S16x128x128 _ _ (ix3 v r l))).trans ?_
  unfold qmean
  refine congrArg (Ideal.div · _) (Finset.sum_congr rfl fun (e : Fin 4) _ => ?_)
  have hl : reduces_S16x4x128x128_S16x128x128.lift (ix3 v r l) e = ix4 v e r l :=
    funext fun d => Fin.ext (by match d with | ⟨0, _⟩ => rfl | ⟨1, _⟩ => rfl | ⟨2, _⟩ => rfl | ⟨3, _⟩ => rfl)
  rw [hl]
  show (_ - _) * (_ - _) * ((_ - _) * (_ - _)) = quart _
  rw [alongLast_apply, alongThird_apply]
  rfl

/-- The squared difference of means: one cell of the score, from the four loaded blocks. -/
theorem pay3_apply (pr pc tr tc : Vec Ideal S16x4x128 .f32) (v : Fin 16) (r l : Fin 128) :
    k0_pay3 (F := Ideal) pr pc tr tc (ix3 v r l)
      = cell (fun e => pr (ix3 v e r)) (fun e => pc (ix3 v e l)) (fun e => tr (ix3 v e r)) (fun e => tc (ix3 v e l)) := by
  unfold k0_pay3 cell
  show (_ - _) * (_ - _) = _
  rw [meanQuart_apply tr tc v r l, meanQuart_apply pr pc v r l]

/-- The weights spread over the square. -/
theorem pay4_apply (w : Vec Ideal S16 .f32) (v : Fin 16) (r l : Fin 128) :
    k0_pay4 (F := Ideal) w (ix3 v r l) = w (ix1 v) := by
  unfold k0_pay4
  show broadcastTo S16x128x128 (shapeCast S16x1x1 (shapeCast S16 w shapeCasts_S16_S16) shapeCasts_S16_S16x1x1) broadcasts_S16x1x1_S16x128x128 (ix3 v r l) = _
  rw [shapeCast_self, overSquare_apply]

/-- The store's payload at row `r`: the running sum there plus, over the 128 columns and the 16 features, cell times weight. -/
theorem pay1_apply (X Wt : FVec Ideal S16x128x128 .f32) (acc : Vec Ideal S128 .f32) (r : Fin 128) :
    k0_pay1 (F := Ideal) X Wt acc (ix1 r) = acc (ix1 r) + ∑ l : Fin 128, ∑ v : Fin 16, X (ix3 v r l) * Wt (ix3 v r l) := by
  unfold k0_pay1
  show (shapeCast S128 acc shapeCasts_S128_S128) (ix1 r) + multiReduction (F := Ideal) .add [1] S128 _ 0x00000000#32 reduces_S128x128_S128 (.inl rfl) rfl (ix1 r) = _
  rw [shapeCast_self]
  refine (congrArg (_ + ·) (laneSum _ reduces_S128x128_S128 _ _ (ix1 r))).trans ?_
  refine congrArg (_ + ·) (Finset.sum_congr rfl fun (l : Fin 128) _ => ?_)
  have hl : reduces_S128x128_S128.lift (ix1 r) l = ix2 r l :=
    funext fun d => Fin.ext (by match d with | ⟨0, _⟩ => rfl | ⟨1, _⟩ => rfl)
  rw [hl]
  refine (laneSum _ reduces_S16x128x128_S128x128 _ _ (ix2 r l)).trans ?_
  refine Finset.sum_congr rfl fun (v : Fin 16) _ => ?_
  have hv : reduces_S16x128x128_S128x128.lift (ix2 r l) v = ix3 v r l :=
    funext fun d => Fin.ext (by match d with | ⟨0, _⟩ => rfl | ⟨1, _⟩ => rfl | ⟨2, _⟩ => rfl)
  rw [hv]
  rfl

/-- The zero block the reset stores. -/
theorem pay2_apply (r : Fin 128) : k0_pay2 (F := Ideal) (ix1 r) = 0 := by
  unfold k0_pay2
  show Ideal.ofBits .f32 0x00000000#32 = 0
  exact Ideal.ofBits_zero_f32

/-- One point's step at row `r`. -/
theorem pointStep_apply (w : Vec Ideal S16 .f32) (pr pc tr tc : Vec Ideal S16x4x128 .f32) (acc : Vec Ideal S128 .f32) (r : Fin 128) :
    pointStep (F := Ideal) w pr pc tr tc acc (ix1 r)
      = acc (ix1 r) + ∑ l : Fin 128, ∑ v : Fin 16,
          cell (fun e => pr (ix3 v e r)) (fun e => pc (ix3 v e l)) (fun e => tr (ix3 v e r)) (fun e => tc (ix3 v e l)) * w (ix1 v) := by
  unfold pointStep
  rw [pay1_apply]
  refine congrArg (_ + ·) (Finset.sum_congr rfl fun l _ => Finset.sum_congr rfl fun v _ => ?_)
  rw [pay3_apply, pay4_apply]

end Cert.KernelIdeal.Hand

end
-- ==== Proof.KI.Blocks.lean ====
/-
  The windows' blocks as entries of the arrays the region finds.

  The weight window's block is the whole 16-entry array at every point. A row window's block at a point holds places
  `128 * (row coordinate) + r` of its array, a column window's block places `128 * (column coordinate) + l`; the feature
  and ensemble axes are whole.
-/
import proofs.«115486_j74277164417458_1_alg».proof.Proof.KI.PointData
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem idxW : ∀ t : Fin cfg0.N, win0_0.index t (0 : Fin 1) = 0 :=
  (by decide +kernel : ∀ t : Fin grid0.N, win0_0.index t (0 : Fin 1) = 0)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, win0_1.index t (0 : Fin 3) = 0 ∧ win0_1.index t (1 : Fin 3) = 0 ∧ win0_1.index t (2 : Fin 3) = t.val / 8)
theorem idx2 : ∀ t : Fin cfg0.N, win0_2.index t (0 : Fin 3) = 0 ∧ win0_2.index t (1 : Fin 3) = 0 ∧ win0_2.index t (2 : Fin 3) = t.val % 8 :=
  (by decide +kernel : ∀ t : Fin grid0.N, win0_2.index t (0 : Fin 3) = 0 ∧ win0_2.index t (1 : Fin 3) = 0 ∧ win0_2.index t (2 : Fin 3) = t.val % 8)
theorem idx3 : ∀ t : Fin cfg0.N, win0_3.index t (0 : Fin 3) = 0 ∧ win0_3.index t (1 : Fin 3) = 0 ∧ win0_3.index t (2 : Fin 3) = t.val / 8 :=
  (by decide +kernel : ∀ t : Fin grid0.N, win0_3.index t (0 : Fin 3) = 0 ∧ win0_3.index t (1 : Fin 3) = 0 ∧ win0_3.index t (2 : Fin 3) = t.val / 8)
theorem idx4 : ∀ t : Fin cfg0.N, win0_4.index t (0 : Fin 3) = 0 ∧ win0_4.index t (1 : Fin 3) = 0 ∧ win0_4.index t (2 : Fin 3) = t.val % 8 :=
  (by decide +kernel : ∀ t : Fin grid0.N, win0_4.index t (0 : Fin 3) = 0 ∧ win0_4.index t (1 : Fin 3) = 0 ∧ win0_4.index t (2 : Fin 3) = t.val % 8)

/-- The weights' block is the weights. -/
theorem blockW_apply (c : Dev nD) (t : Fin cfg0.N) (x : S16.Idx) :
    (blockAt m ρ c 0 t : Vec F S16 .f32) x = (atEntry m ρ c main_v1 : S16.Idx → Elt F .f32) x := by
  have i0 := idxW t
  unfold blockAt
  rw [View.read_apply]
  show (atEntry m ρ c main_v1 : S16.Idx → Elt F .f32) _ = _
  refine congrArg (atEntry m ρ c main_v1 : S16.Idx → Elt F .f32) (funext fun a => Fin.ext ?_)
  match a with
  | ⟨0, _⟩ => show win0_0.index t 0 * 16 + 1 * (x 0).val = (x 0).val; rw [i0]; omega

/-- Window 1's block at point `t`: places `128 * (t / 8) + …` of its array. -/
theorem block1_apply (c : Dev nD) (t : Fin cfg0.N) (x : S16x4x128.Idx) (k : S16x4x1024.Idx)
    (h0 : (k 0).val = (x 0).val) (h1 : (k 1).val = (x 1).val) (h2 : (k 2).val = 128 * (t.val / 8) + (x 2).val) :
    (blockAt m ρ c 1 t : Vec F S16x4x128 .f32) x = (atEntry m ρ c main_v15 : S16x4x1024.Idx → Elt F .f32) k := by
  obtain ⟨i0, i1, i2⟩ := idx1 t
  unfold blockAt
  rw [View.read_apply]
  show (atEntry m ρ c main_v15 : S16x4x1024.Idx → Elt F .f32) _ = _
  refine congrArg (atEntry m ρ c main_v15 : S16x4x1024.Idx → Elt F .f32) (funext fun a => Fin.ext ?_)
  match a with
  | ⟨0, _⟩ => show win0_1.index t 0 * 16 + 1 * (x 0).val = (k 0).val; rw [i0, h0]; omega
  | ⟨1, _⟩ => show win0_1.index t 1 * 4 + 1 * (x 1).val = (k 1).val; rw [i1, h1]; omega
  | ⟨2, _⟩ => show win0_1.index t 2 * 128 + 1 * (x 2).val = (k 2).val; rw [i2, h2]; omega

/-- Window 2's block at point `t`: places `128 * (t % 8) + …` of its array. -/
theorem block2_apply (c : Dev nD) (t : Fin cfg0.N) (x : S16x4x128.Idx) (k : S16x4x1024.Idx)
    (h0 : (k 0).val = (x 0).val) (h1 : (k 1).val = (x 1).val) (h2 : (k 2).val = 128 * (t.val % 8) + (x 2).val) :
    (blockAt m ρ c 2 t : Vec F S16x4x128 .f32) x = (atEntry m ρ c main_v15 : S16x4x1024.Idx → Elt F .f32) k := by
  obtain ⟨i0, i1, i2⟩ := idx2 t
  unfold blockAt
  rw [View.read_apply]
  show (atEntry m ρ c main_v15 : S16x4x1024.Idx → Elt F .f32) _ = _
  refine congrArg (atEntry m ρ c main_v15 : S16x4x1024.Idx → Elt F .f32) (funext fun a => Fin.ext ?_)
  match a with
  | ⟨0, _⟩ => show win0_2.index t 0 * 16 + 1 * (x 0).val = (k 0).val; rw [i0, h0]; omega
  | ⟨1, _⟩ => show win0_2.index t 1 * 4 + 1 * (x 1).val = (k 1).val; rw [i1, h1]; omega
  | ⟨2, _⟩ => show win0_2.index t 2 * 128 + 1 * (x 2).val = (k 2).val; rw [i2, h2]; omega

/-- Window 3's block at point `t`: places `128 * (t / 8) + …` of its array. -/
theorem block3_apply (c : Dev nD) (t : Fin cfg0.N) (x : S16x4x128.Idx) (k : S16x4x1024.Idx)
    (h0 : (k 0).val = (x 0).val) (h1 : (k 1).val = (x 1).val) (h2 : (k 2).val = 128 * (t.val / 8) + (x 2).val) :
    (blockAt m ρ c 3 t : Vec F S16x4x128 .f32) x = (atEntry m ρ c main_v16 : S16x4x1024.Idx → Elt F .f32) k := by
  obtain ⟨i0, i1, i2⟩ := idx3 t
  unfold blockAt
  rw [View.read_apply]
  show (atEntry m ρ c main_v16 : S16x4x1024.Idx → Elt F .f32) _ = _
  refine congrArg (atEntry m ρ c main_v16 : S16x4x1024.Idx → Elt F .f32) (funext fun a => Fin.ext ?_)
  match a with
  | ⟨0, _⟩ => show win0_3.index t 0 * 16 + 1 * (x 0).val = (k 0).val; rw [i0, h0]; omega
  | ⟨1, _⟩ => show win0_3.index t 1 * 4 + 1 * (x 1).val = (k 1).val; rw [i1, h1]; omega
  | ⟨2, _⟩ => show win0_3.index t 2 * 128 + 1 * (x 2).val = (k 2).val; rw [i2, h2]; omega

/-- Window 4's block at point `t`: places `128 * (t % 8) + …` of its array. -/
theorem block4_apply (c : Dev nD) (t : Fin cfg0.N) (x : S16x4x128.Idx) (k : S16x4x1024.Idx)
    (h0 : (k 0).val = (x 0).val) (h1 : (k 1).val = (x 1).val) (h2 : (k 2).val = 128 * (t.val % 8) + (x 2).val) :
    (blockAt m ρ c 4 t : Vec F S16x4x128 .f32) x = (atEntry m ρ c main_v16 : S16x4x1024.Idx → Elt F .f32) k := by
  obtain ⟨i0, i1, i2⟩ := idx4 t
  unfold blockAt
  rw [View.read_apply]
  show (atEntry m ρ c main_v16 : S16x4x1024.Idx → Elt F .f32) _ = _
  refine congrArg (atEntry m ρ c main_v16 : S16x4x1024.Idx → Elt F .f32) (funext fun a => Fin.ext ?_)
  match a with
  | ⟨0, _⟩ => show win0_4.index t 0 * 16 + 1 * (x 0).val = (k 0).val; rw [i0, h0]; omega
  | ⟨1, _⟩ => show win0_4.index t 1 * 4 + 1 * (x 1).val = (k 1).val; rw [i1, h1]; omega
  | ⟨2, _⟩ => show win0_4.index t 2 * 128 + 1 * (x 2).val = (k 2).val; rw [i2, h2]; omega

end Cert.KernelIdeal.Hand

end
-- ==== Proof.KI.OutputArray.lean ====
/-
  The output array after the region.

  The output window's block index is the row coordinate of the grid, and the block is written back after the last column
  block of each row (points 7, 15, …, 63). So entry `l` of the 1024-entry output array ends holding entry `l mod 128` of
  what the output buffer held after the last point of grid row `l / 128`. The eight written blocks tile the array.
-/
import proofs.«115486_j74277164417458_1_alg».proof.Proof.KI.RowSums
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The output window's block index at a point is the point's row coordinate. -/
theorem outIndex : ∀ t : Fin cfg0.N, win0_5.index t (0 : Fin 1) = t.val / 8 :=
  (by decide +kernel : ∀ t : Fin grid0.N, win0_5.index t (0 : Fin 1) = t.val / 8)

/-- Its block is never clipped. -/
theorem outXsize : ∀ t : Fin cfg0.N, win0_5.xsize (grid0.coords t) (0 : Fin 1) = 128 :=
  (by decide +kernel : ∀ t : Fin grid0.N, win0_5.xsize (grid0.coords t) (0 : Fin 1) = 128)

theorem accAt_congr (c : Dev nD) {n n' : ℕ} (e : n = n') (h : n < cfg0.N) (h' : n' < cfg0.N) :
    accAt m ρ c n h = accAt m ρ c n' h' := by subst e; rfl

/-- The last point of grid row `l / 128`. -/
theorem rowEnd_lt (l : ℕ) (hl : l < 1024) : 8 * (l / 128) + 7 < cfg0.N := by
  rw [show cfg0.N = 64 from N_0]; omega

/-- The output array after the run. -/
def outArray (c : Dev nD) : Buf (Elt F) ((c.tc : Thread nD τ).loc main_v17) := fun (i : S1024.Idx) =>
  accAt m ρ c (8 * ((i 0).val / 128) + 7) (rowEnd_lt _ (i 0).isLt) (ix1 (⟨(i 0).val % 128, Nat.mod_lt _ (by decide)⟩ : Fin 128))

/-- Each write-back writes the block of `outArray` it covers. -/
theorem flushed_out (c : Dev nD) (t : Fin cfg0.N) (hf : (cfg0.win 5).flush t = true) :
    (dats m ρ 0 c).flushed 5 t = ((cfg0.win 5).blk t).view.read (Elt F) (outArray m ρ c) := by
  have h7 : t.val % 8 = 7 := (flush0_5 t).mp hf
  have hN : t.val < 64 := lt_of_lt_of_eq t.isLt (show cfg0.N = 64 from N_0)
  show (cfg0.win 5).cut (grid0.coords t) ((dats m ρ 0 c).after 5 t) = _
  rw [after_5]
  funext y
  rw [View.read_apply]
  have hy : (y 0).val < 128 := (y 0).isLt
  have he : ((((cfg0.win 5).blk t).view.emb y) 0).val = (t.val / 8) * 128 + (y 0).val := by
    show win0_5.index t 0 * 128 + 1 * (y 0).val = _
    rw [outIndex]; omega
  show accAt m ρ c t.val t.isLt y = outArray m ρ c (((cfg0.win 5).blk t).view.emb y)
  unfold outArray
  have e1 : 8 * (((((cfg0.win 5).blk t).view.emb y) 0).val / 128) + 7 = t.val := by rw [he]; omega
  have e2 : ((((cfg0.win 5).blk t).view.emb y) 0).val % 128 = (y 0).val := by rw [he]; omega
  refine (congrFun (accAt_congr m ρ c e1.symm t.isLt (rowEnd_lt _ ((((cfg0.win 5).blk t).view.emb y) 0).isLt)) y).trans ?_
  refine congrArg _ (funext fun d => ?_)
  match d with
  | ⟨0, _⟩ => exact Fin.ext e2.symm

/-- Entry `i` of the output array lies in the block written back after the last point of its grid row. -/
theorem mem_outBlock (i : S1024.Idx) (t : Fin cfg0.N) (ht : t.val = 8 * ((i 0 : Nat) / 128) + 7) :
    i ∈ ((cfg0.win 5).blk t).view.set := by
  have hi : (i 0 : Nat) < 1024 := (i 0).isLt
  show i ∈ ((View.whole main_v17).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [outIndex, outXsize, show win0_5.size 0 = 128 from rfl, ht]
    omega

/-- So the output array ends holding `outArray`. -/
theorem out_final (c : Dev nD) : (dats m ρ 0 c).arrAt 5 cfg0.N = outArray m ρ c :=
  (dats m ρ 0 c).arrAt_eq_of_cover 5 (outArray m ρ c) (flushed_out m ρ c) fun i =>
    ⟨⟨8 * ((i 0 : Nat) / 128) + 7, rowEnd_lt _ (i 0).isLt⟩,
      (flush0_5 _).mpr (by show (8 * ((i 0 : Nat) / 128) + 7) % 8 = 7; omega), mem_outBlock i _ rfl⟩

end Cert.KernelIdeal.Hand

end
-- ==== Proof.KI.RowTotal.lean ====
/-
  The output array, row by row, over the extended reals.

  Row `L` of the output array is accumulated over the eight column blocks of its grid row: starting from zero, each block
  `j` adds the sum, over the block's 128 places `b = 128 j + l` and the 16 features `v`, of the cell between places `L`
  and `b` times the feature's weight. Eight blocks of 128 places are all 1024 places, so row `L` ends at the sum over
  every place `b` and feature `v` of cell times weight.
-/
import proofs.«115486_j74277164417458_1_alg».proof.Proof.KI.PointValue
import proofs.«115486_j74277164417458_1_alg».proof.Proof.KI.Blocks
import proofs.«115486_j74277164417458_1_alg».proof.Proof.KI.OutputArray

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx Cert.ScoreLaws

variable (m : (ℓ : Loc nD τ sig) → Buf (Elt Ideal) ℓ) (ρ : Dev nD → PrngReg)

/-- Place `128 j + l` among the 1024 (reduced modulo 1024, so that it is defined for all `j`, `l`). -/
def place (j l : ℕ) : Fin 1024 := ⟨(128 * j + l) % 1024, Nat.mod_lt _ (by decide)⟩

/-- The normalised weights, the scaled predictions and the scaled targets, as the region finds them. -/
abbrev wts (c : Dev nD) : S16.Idx → EReal := atEntry m ρ c main_v1
abbrev prd (c : Dev nD) : S16x4x1024.Idx → EReal := atEntry m ρ c main_v15
abbrev tgt (c : Dev nD) : S16x4x1024.Idx → EReal := atEntry m ρ c main_v16

/-- The score's cell for feature `v` between places `a` and `b`. -/
def cellAt (c : Dev nD) (v : Fin 16) (a b : Fin 1024) : EReal :=
  cell (fun e => prd m ρ c (ix3 v e a)) (fun e => prd m ρ c (ix3 v e b)) (fun e => tgt m ρ c (ix3 v e a)) (fun e => tgt m ρ c (ix3 v e b))

/-- Column block `j`'s contribution to row `L`. -/
def contrib (c : Dev nD) (L : Fin 1024) (j : ℕ) : EReal :=
  ∑ l : Fin 128, ∑ v : Fin 16, cellAt m ρ c v L (place j l.val) * wts m ρ c (ix1 v)

/-- Row `L` after column blocks `0 … j`. -/
def partialSum (c : Dev nD) (L : Fin 1024) (j : ℕ) : EReal := 0 + ∑ i ∈ Finset.range (j + 1), contrib m ρ c L i

theorem partialSum_zero (c : Dev nD) (L : Fin 1024) : partialSum m ρ c L 0 = 0 + contrib m ρ c L 0 := by
  unfold partialSum; rw [Finset.sum_range_one]

theorem partialSum_succ (c : Dev nD) (L : Fin 1024) (j : ℕ) :
    partialSum m ρ c L (j + 1) = partialSum m ρ c L j + contrib m ρ c L (j + 1) := by
  unfold partialSum; rw [Finset.sum_range_succ _ (j + 1), add_assoc]

/-- One point's step at row `r` of its block: the running sum plus the point's column block's contribution to the place
    the row stands for. -/
theorem stepAt_apply (c : Dev nD) (t : Fin cfg0.N) (acc : Vec Ideal S128 .f32) (r : Fin 128) :
    stepAt m ρ c t acc (ix1 r) = acc (ix1 r) + contrib m ρ c (place (t.val / 8) r.val) (t.val % 8) := by
  have hN : t.val < 64 := lt_of_lt_of_eq t.isLt (show cfg0.N = 64 from N_0)
  have hr : r.val < 128 := r.isLt
  unfold stepAt
  rw [pointStep_apply]
  unfold contrib
  refine congrArg (_ + ·) (Finset.sum_congr rfl fun (l : Fin 128) _ => Finset.sum_congr rfl fun (v : Fin 16) _ => ?_)
  have hl : l.val < 128 := l.isLt
  have hP1 : ∀ e : Fin 4, (blockAt m ρ c 1 t : Vec Ideal S16x4x128 .f32) (ix3 v e r) = prd m ρ c (ix3 v e (place (t.val / 8) r.val)) :=
    fun e => block1_apply m ρ c t (ix3 v e r) (ix3 v e (place (t.val / 8) r.val)) rfl rfl
      (by show (128 * (t.val / 8) + r.val) % 1024 = 128 * (t.val / 8) + r.val; omega)
  have hP2 : ∀ e : Fin 4, (blockAt m ρ c 2 t : Vec Ideal S16x4x128 .f32) (ix3 v e l) = prd m ρ c (ix3 v e (place (t.val % 8) l.val)) :=
    fun e => block2_apply m ρ c t (ix3 v e l) (ix3 v e (place (t.val % 8) l.val)) rfl rfl
      (by show (128 * (t.val % 8) + l.val) % 1024 = 128 * (t.val % 8) + l.val; omega)
  have hT1 : ∀ e : Fin 4, (blockAt m ρ c 3 t : Vec Ideal S16x4x128 .f32) (ix3 v e r) = tgt m ρ c (ix3 v e (place (t.val / 8) r.val)) :=
    fun e => block3_apply m ρ c t (ix3 v e r) (ix3 v e (place (t.val / 8) r.val)) rfl rfl
      (by show (128 * (t.val / 8) + r.val) % 1024 = 128 * (t.val / 8) + r.val; omega)
  have hT2 : ∀ e : Fin 4, (blockAt m ρ c 4 t : Vec Ideal S16x4x128 .f32) (ix3 v e l) = tgt m ρ c (ix3 v e (place (t.val % 8) l.val)) :=
    fun e => block4_apply m ρ c t (ix3 v e l) (ix3 v e (place (t.val % 8) l.val)) rfl rfl
      (by show (128 * (t.val % 8) + l.val) % 1024 = 128 * (t.val % 8) + l.val; omega)
  have hW : (blockAt m ρ c 0 t : Vec Ideal S16 .f32) (ix1 v) = wts m ρ c (ix1 v) := blockW_apply m ρ c t (ix1 v)
  unfold cellAt
  exact congr (congrArg (· * ·) (congr (congr (congr (congrArg cell (funext hP1)) (funext hP2)) (funext hT1)) (funext hT2))) hW

/-- The output buffer after the body at grid position `n`, at row `r`: the partial sum of the place the row stands for,
    through the position's column block. -/
theorem accAt_apply (c : Dev nD) : ∀ (n : ℕ) (h : n < cfg0.N) (r : Fin 128),
    accAt m ρ c n h (ix1 r) = partialSum m ρ c (place (n / 8) r.val) (n % 8)
  | 0, h, r => by
    rw [accAt_first m ρ c ⟨0, h⟩ rfl, stepAt_apply, pay2_apply]
    exact (partialSum_zero m ρ c _).symm
  | n + 1, h, r => by
    have hN : n + 1 < 64 := lt_of_lt_of_eq h (show cfg0.N = 64 from N_0)
    by_cases h0 : (n + 1) % 8 = 0
    · rw [accAt_first m ρ c ⟨n + 1, h⟩ h0, stepAt_apply, pay2_apply]
      show 0 + contrib m ρ c (place ((n + 1) / 8) r.val) ((n + 1) % 8) = partialSum m ρ c (place ((n + 1) / 8) r.val) ((n + 1) % 8)
      rw [h0]
      exact (partialSum_zero m ρ c _).symm
    · rw [accAt_next m ρ c ⟨n + 1, h⟩ h0, stepAt_apply]
      show accAt m ρ c n _ (ix1 r) + contrib m ρ c (place ((n + 1) / 8) r.val) ((n + 1) % 8) = _
      rw [accAt_apply c n _ r]
      have e1 : (n + 1) / 8 = n / 8 := by omega
      have e2 : (n + 1) % 8 = n % 8 + 1 := by omega
      rw [e1, e2]
      exact (partialSum_succ m ρ c _ _).symm

/-- Eight blocks of 128 places are the 1024 places. -/
theorem place_pair (j : Fin 8) (l : Fin 128) : (finProdFinEquiv (j, l) : Fin (8 * 128)) = place j.val l.val :=
  Fin.ext (by show l.val + 128 * j.val = (128 * j.val + l.val) % 1024; have := j.isLt; have := l.isLt; omega)

/-- Row `L` of the output array: the sum over every place and feature of cell times weight. -/
theorem outArray_apply (c : Dev nD) (L : Fin 1024) :
    outArray m ρ c (ix1 L) = 0 + ∑ b : Fin 1024, ∑ v : Fin 16, cellAt m ρ c v L b * wts m ρ c (ix1 v) := by
  have hL : L.val < 1024 := L.isLt
  unfold outArray
  show accAt m ρ c (8 * (L.val / 128) + 7) _ (ix1 (⟨L.val % 128, _⟩ : Fin 128)) = _
  rw [accAt_apply]
  have eL : place ((8 * (L.val / 128) + 7) / 8) (L.val % 128) = L :=
    Fin.ext (by show (128 * ((8 * (L.val / 128) + 7) / 8) + L.val % 128) % 1024 = L.val; omega)
  have e7 : (8 * (L.val / 128) + 7) % 8 = 7 := by omega
  show partialSum m ρ c (place ((8 * (L.val / 128) + 7) / 8) (L.val % 128)) ((8 * (L.val / 128) + 7) % 8) = _
  rw [eL, e7]
  unfold partialSum
  refine congrArg (0 + ·) ?_
  rw [← Fin.sum_univ_eq_sum_range (fun i => contrib m ρ c L i) (7 + 1)]
  show ∑ j : Fin 8, contrib m ρ c L j.val = ∑ b : Fin (8 * 128), ∑ v : Fin 16, cellAt m ρ c v L b * wts m ρ c (ix1 v)
  rw [← (finProdFinEquiv (m := 8) (n := 128)).sum_comp, Fintype.sum_prod_type]
  refine Finset.sum_congr rfl fun j _ => ?_
  unfold contrib
  refine Finset.sum_congr rfl fun l _ => ?_
  rw [place_pair]

end Cert.KernelIdeal.Hand

end
-- ==== Proof.KI.Shares.lean ====
/-
  How the arrays enter and leave the pipeline when two windows read one array.

  The scaled predictions are handed to the kernel twice — once as the row block, once as the column block — and so are
  the scaled targets. Each of those two arrays is therefore held by two windows at once: at entry its full share is
  split into a left and a right half, one per window; at exit the two halves, which still hold the entry contents (an
  input array is never written), are joined back into the full share. The weight vector's array and the output array
  are each held by one window, whole.
-/
import proofs.«115486_j74277164417458_1_alg».proof.Proof.KI.PointData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows: the weights, the scaled predictions, the scaled targets, the output. -/
theorem arrRefs_eq : Finset.univ.image (Pipeline.arrRef spec0) = ({main_v1, main_v15, main_v16, main_v17} : Finset (Ref sig .tc)) := by
  decide

theorem share_0 (c : Dev nD) : (dats m ρ 0 c).share 0 = fullShare := by unfold Dat.share; dsimp only [dats]; rfl
theorem share_1 (c : Dev nD) : (dats m ρ 0 c).share 1 = fullShare.left := by unfold Dat.share; dsimp only [dats]; rfl
theorem share_2 (c : Dev nD) : (dats m ρ 0 c).share 2 = fullShare.right := by unfold Dat.share; dsimp only [dats]; rfl
theorem share_3 (c : Dev nD) : (dats m ρ 0 c).share 3 = fullShare.left := by unfold Dat.share; dsimp only [dats]; rfl
theorem share_4 (c : Dev nD) : (dats m ρ 0 c).share 4 = fullShare.right := by unfold Dat.share; dsimp only [dats]; rfl
theorem share_5 (c : Dev nD) : (dats m ρ 0 c).share 5 = fullShare := by unfold Dat.share; dsimp only [dats]; rfl

/-- One window's array in the pipeline's account of the arrays: the whole buffer behind it, at the window's share. -/
theorem cell_eq (c : Dev nD) (w : Fin cfg0.W) (q : PosShare TreeShare) (hq : (dats m ρ 0 c).share w = q)
    (f : Buf (Elt F) ((cfg0.win w).arr.view.loc (c.tc : Thread nD τ))) :
    ((cfg0.win w).arr.view.loc (c.tc : Thread nD τ) ↦[(cfg0.win w).arr.view.set]{(dats m ρ 0 c).share w} f : sProp 𝕄)
      = (((c.tc : Thread nD τ).loc (Pipeline.arrRef spec0 w)) ↦{q} f) := by
  rw [(arr_whole0 w).set_eq_univ, hq]

/-- An input window's array, at any position of the grid, is the buffer behind it at the region-entry contents: an input
    array is never written. -/
theorem cell_in_eq (c : Dev nD) (w : Fin cfg0.W) (hin : (cfg0.win w).isOut = false) (q : PosShare TreeShare)
    (hq : (dats m ρ 0 c).share w = q) (n : ℕ) :
    ((cfg0.win w).arr.view.loc (c.tc : Thread nD τ) ↦[(cfg0.win w).arr.view.set]{(dats m ρ 0 c).share w} (dats m ρ 0 c).arrAt w n : sProp 𝕄)
      = (((c.tc : Thread nD τ).loc (Pipeline.arrRef spec0 w)) ↦{q} atEntry m ρ c (Pipeline.arrRef spec0 w)) := by
  rw [(arr_whole0 w).set_eq_univ, hq, (dats m ρ 0 c).arrAt_in w hin n, A_eq]

/-- ENTRY: the four buffers, each whole at the full share at the region-entry contents, are the six windows' arrays
    at the proof data's entry contents and shares. -/
theorem entry_arrays (c : Dev nD) :
    (Pipeline.arrBufs spec0 c (atEntry m ρ c) : sProp 𝕄) ⊢ (dats m ρ 0 c).arrays ((dats m ρ 0 c).arrAt · 0) := by
  unfold Pipeline.arrBufs Dat.arrays
  rw [arrRefs_eq, bigSep_insert (by decide), bigSep_insert (by decide), bigSep_insert (by decide), BI.bigSep_singleton, bigSep_W0]
  rw [cell_eq m ρ c 0 _ (share_0 m ρ c), cell_eq m ρ c 1 _ (share_1 m ρ c), cell_eq m ρ c 2 _ (share_2 m ρ c),
    cell_eq m ρ c 3 _ (share_3 m ρ c), cell_eq m ρ c 4 _ (share_4 m ρ c), cell_eq m ρ c 5 _ (share_5 m ρ c)]
  refine (show iprop((((c.tc : Thread nD τ).loc main_v1) ↦{fullShare} atEntry m ρ c main_v1)
      ∗ (((c.tc : Thread nD τ).loc main_v15) ↦{fullShare} atEntry m ρ c main_v15)
      ∗ (((c.tc : Thread nD τ).loc main_v16) ↦{fullShare} atEntry m ρ c main_v16)
      ∗ (((c.tc : Thread nD τ).loc main_v17) ↦{fullShare} atEntry m ρ c main_v17)) ⊢ _ from ?_)
  iintro ⟨H1, H15, H16, H17⟩
  ihave H15 := (pointsTo_share (PosShare.mem_left_op_right fullShare)).1 $$ H15
  icases H15 with ⟨H15l, H15r⟩
  ihave H16 := (pointsTo_share (PosShare.mem_left_op_right fullShare)).1 $$ H16
  icases H16 with ⟨H16l, H16r⟩
  isplitl [H1]; · iexact H1
  isplitl [H15l]; · iexact H15l
  isplitl [H15r]; · iexact H15r
  isplitl [H16l]; · iexact H16l
  isplitl [H16r]; · iexact H16r
  iexact H17

/-! ## At the region's exit -/

/-- Core `c`'s buffers when the region is left: as it found them, but for the output array, which holds what the
    write-backs made of it. -/
def atExit (c : Dev nD) : Valuation τ sig (Elt F) :=
  Function.update (StableHlo.after hostOps0 (atLaunch m ρ c)) (Proc.devRef .tc main_v17) ((dats m ρ 0 c).arrAt 5 cfg0.N)

theorem atExit_out (c : Dev nD) : atExit m ρ c (Proc.devRef .tc main_v17) = (dats m ρ 0 c).arrAt 5 cfg0.N := by
  unfold atExit; exact Function.update_self _ _ _

theorem atExit_of_ne (c : Dev nD) (b : Ref sig .tc) (hb : b ≠ main_v17) :
    atExit m ρ c (Proc.devRef .tc b) = atEntry m ρ c b := by
  unfold atExit; exact Function.update_of_ne (StableHlo.devRef_ne_of_ne hb) _ _

/-- EXIT: the six windows' arrays at their final contents — the inputs' as at entry, the halves of the two shared arrays
    joined — and the buffers no window stages are all of the core's unscoped buffers at the exit valuation. -/
theorem exit_arrays (c : Dev nD) :
    iprop((dats m ρ 0 c).arrays ((dats m ρ 0 c).arrAt · cfg0.N) ∗ Pipeline.unscopedRest spec0 c (atEntry m ρ c))
      ⊢ (unscopedBufs c (fun b => atExit m ρ c b) : sProp 𝕄) := by
  rw [Pipeline.unscopedBufs_split₀ cfgs (0 : Fin 1) winFacts₀0.arr_unscoped c (fun b => atExit m ρ c b)]
  refine sep_mono ?_ (Entails.of_eq ?_)
  · unfold Pipeline.arrBufs Dat.arrays
    rw [arrRefs_eq, bigSep_insert (by decide), bigSep_insert (by decide), bigSep_insert (by decide), BI.bigSep_singleton, bigSep_W0]
    beta_reduce
    rw [cell_in_eq m ρ c 0 rfl _ (share_0 m ρ c) cfg0.N, cell_in_eq m ρ c 1 rfl _ (share_1 m ρ c) cfg0.N,
      cell_in_eq m ρ c 2 rfl _ (share_2 m ρ c) cfg0.N, cell_in_eq m ρ c 3 rfl _ (share_3 m ρ c) cfg0.N,
      cell_in_eq m ρ c 4 rfl _ (share_4 m ρ c) cfg0.N, cell_eq m ρ c 5 _ (share_5 m ρ c)]
    rw [atExit_of_ne m ρ c main_v1 (by decide), atExit_of_ne m ρ c main_v15 (by decide), atExit_of_ne m ρ c main_v16 (by decide),
      atExit_out m ρ c]
    refine (show iprop((((c.tc : Thread nD τ).loc main_v1) ↦{fullShare} atEntry m ρ c main_v1)
      ∗ (((c.tc : Thread nD τ).loc main_v15) ↦{fullShare.left} atEntry m ρ c main_v15)
      ∗ (((c.tc : Thread nD τ).loc main_v15) ↦{fullShare.right} atEntry m ρ c main_v15)
      ∗ (((c.tc : Thread nD τ).loc main_v16) ↦{fullShare.left} atEntry m ρ c main_v16)
      ∗ (((c.tc : Thread nD τ).loc main_v16) ↦{fullShare.right} atEntry m ρ c main_v16)
      ∗ _)
      ⊢ iprop((((c.tc : Thread nD τ).loc main_v1) ↦{fullShare} atEntry m ρ c main_v1)
      ∗ (((c.tc : Thread nD τ).loc main_v15) ↦{fullShare} atEntry m ρ c main_v15)
      ∗ (((c.tc : Thread nD τ).loc main_v16) ↦{fullShare} atEntry m ρ c main_v16)
      ∗ _) from ?_)
    iintro ⟨H1, H15l, H15r, H16l, H16r, H17⟩
    ihave H15 := (pointsTo_share (PosShare.mem_left_op_right fullShare)).2 $$ [H15l H15r]
    · isplitl [H15l] <;> iassumption
    ihave H16 := (pointsTo_share (PosShare.mem_left_op_right fullShare)).2 $$ [H16l H16r]
    · isplitl [H16l] <;> iassumption
    isplitl [H1]; · iexact H1
    isplitl [H15]; · iexact H15
    isplitl [H16]; · iexact H16
    iexact H17
  · unfold Pipeline.unscopedRest
    refine bigSep_congr fun b hb => ?_
    beta_reduce
    have hne : b ≠ main_v17 := fun e => (Finset.mem_sdiff.mp hb).2 (e ▸ Finset.mem_image.mpr ⟨5, Finset.mem_univ _, rfl⟩)
    rw [atExit_of_ne m ρ c b hne]

end Cert.KernelIdeal.Hand

end
-- ==== Proof.KI.Launch.lean ====
/-
  The run of the whole program, for any float instance: the host operations before the kernel, the kernel's region, the
  host operations after it.

  The program is three stretches. The first computes, on the host, the normalised weights and the scaled, transposed
  predictions and targets. The second is the kernel region over the 8 x 8 grid. The third sums the kernel's 1024 row sums
  and divides by 16. Between the stretches the core holds all of its unscoped buffers whole: before the region at the
  contents the first stretch computed, after it at the same contents except for the kernel's output array. Inside the
  region the two arrays that two windows read are each split into two half shares and joined again at the exit.
  The run ends with every unscoped buffer at the last stretch's result of the exit contents.
-/
import proofs.«115486_j74277164417458_1_alg».proof.Proof.KI.Shares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra: the kernel has no semaphore of its own. -/
abbrev EP : Emb (UR sig nD τ) (MT nD τ sig Unit (Elt F) ℕ (UR sig nD τ) ℕ) := emb₁

/-- No core owes another anything: no level is assigned. -/
abbrev noLevels : GSem nD τ sig → Finset Unit := fun _ => ∅
abbrev levelZero : GSem nD τ sig → Unit → ℕ := fun _ _ => 0
/-- No prefetched table. -/
abbrev adm : (p : Fin 1) → (pcfgs (F := F) p).Adm := fun p => (cfgs p).toPCfg_adm

/-- What rides beside the buffers through the host stretches: the core owing nothing. -/
abbrev owesNothing (c : Dev nD) : sProp 𝕄 := iprop(∃ W, owes (c : Thread nD τ) (0 : CellTallies nD τ sig Unit) W)

/-- The stretch before the region: twenty operations over the unscoped buffers. -/
def segBefore : Pipeline.HostSeg (Name := ℕ) (U := UR sig nD τ) (pcfgs (F := F)) defs₀ Variants.none noLevels levelZero :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (atLaunch m ρ) owesNothing

/-- The stretch after the region: four operations, from the exit contents. -/
def segAfter : Pipeline.HostSeg (Name := ℕ) (U := UR sig nD τ) (pcfgs (F := F)) defs₀ Variants.none noLevels levelZero :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (atExit m ρ) owesNothing

set_option backward.isDefEq.respectTransparency.types false in
/-- The region: entered from what the first stretch left — the four windowed buffers into the pipeline (two of them
    split in halves), the other unscoped buffers bypassing —, left with the output array at its final contents. -/
def region : Pipeline.RegionSeg (pcfgs (F := F)) adm (dats m ρ) () defs₀ Variants.none noLevels levelZero 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ noLevels levelZero 0 fun _ _ => rfl
  pre c := iprop(StableHlo.held (c : Thread nD τ) (Pipeline.ucRefs τ sig) (StableHlo.after hostOps0 (atLaunch m ρ c)) ∗ owesNothing c)
  post c := iprop(StableHlo.held (c : Thread nD τ) (Pipeline.ucRefs τ sig) (atExit m ρ c) ∗ owesNothing c)
  X _ := iprop(emp)
  Y _ := iprop(emp)
  Z c := Pipeline.unscopedRest spec0 c (atEntry m ρ c)
  hentry c := by
    rw [show StableHlo.held (c : Thread nD τ) (Pipeline.ucRefs τ sig) (StableHlo.after hostOps0 (atLaunch m ρ c)) = unscopedBufs c (atEntry m ρ c) from (Pipeline.unscopedBufs_held c _).symm,
      Pipeline.ownSems0_none, Pipeline.unscopedBufs_split₀ cfgs (0 : Fin 1) winFacts₀0.arr_unscoped c (atEntry m ρ c)]
    iintro ⟨⟨⟨Hab, Hur⟩, HO⟩, -, -⟩
    ihave Ha := (entry_arrays m ρ c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (atExit m ρ c) = unscopedBufs c (fun b => atExit m ρ c b) from (Pipeline.unscopedBufs_held c _).symm]
    iintro ⟨Ha, HO, -, HZ⟩
    imodintro
    isplitr [HO]
    · iapply (exit_arrays m ρ c); isplitl [Ha] <;> iassumption
    · unfold Pipeline.Dat.owesAt Pipeline.owesWithin
      icases HO with ⟨%W, -, HO⟩; iexists W; iexact HO

/-- The program as the list of the three. -/
abbrev segs : List (Pipeline.Seg (pcfgs (F := F)) adm (dats m ρ) () defs₀ Variants.none noLevels levelZero) :=
  [.host (segBefore m ρ), .region (region m ρ), .host (segAfter m ρ)]

/-- Where every unscoped buffer of every core ends: at the last stretch's result of the exit contents. -/
def endsAt : PUnit × MemSt nD τ sig (Elt F) → Prop := fun r =>
  ∀ c : Dev nD, ∀ b ∈ Pipeline.ucRefs τ sig, r.2.mem (((c : Thread nD τ).1, b)) = StableHlo.after hostOps1 (atExit m ρ c) b

set_option backward.isDefEq.respectTransparency.types false in
/-- From any memory with zero counters, every weakly fair execution of the program terminates without a fault, and
    every unscoped buffer ends where `endsAt` says. -/
theorem run_main : θ_run defs (onTc (τ := τ) (main (F := F))) (s₀ m ρ) (endsAt m ρ) :=
  Pipeline.θ_run_regions_kit (pcfgs (F := F)) adm (dats m ρ) () cellOf_inj EP defs₀ Variants.none noLevels levelZero m ρ main (segs m ρ)
    (fun c Q => by rw [main_segs adm (dats m ρ) () Variants.none noLevels levelZero (segBefore m ρ) (segAfter m ρ) (region m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ owesNothing c))
    (Tₙ := fun c => StableHlo.held (c : Thread nD τ) (Pipeline.ucRefs τ sig) (StableHlo.after hostOps1 (atExit m ρ c)))
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (atLaunch m ρ c) from Pipeline.unscopedBufs_held c (atLaunch m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ).1, b)) = StableHlo.after hostOps1 (atExit m ρ c) b)
    (hfin := fun c s' => by
      unfold StableHlo.held
      iintro ⟨Hh, HSI⟩
      ihave Hr := (pointsTo_read_all (Pipeline.ucRefs τ sig) (fun b => (((c : Thread nD τ).1, b) : Loc nD τ sig)) (StableHlo.after hostOps1 (atExit m ρ c)) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KI.Frame.lean ====
/-
  What the run says of the argument arrays and of the result.

  No host operation of either stretch writes an argument array, and no window of the kernel is on one; so each of the
  four ends as launched. The result scalar ends at the last stretch's value of the exit contents: the sum of the output
  array's 1024 entries, divided by 16.
-/
import proofs.«115486_j74277164417458_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_unscoped (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by rw [hb]; exact Bool.false_ne_true⟩

/-- Argument 0 ends as launched. -/
theorem arg0_kept (c : Dev nD) :
    StableHlo.after hostOps1 (atExit m ρ c) (Proc.devRef .tc main_arg0) = m ((c.tc : Thread nD τ).loc main_arg0) := by
  after_results
  rw [atExit_of_ne m ρ c main_arg0 (by decide)]
  show StableHlo.after hostOps0 (atLaunch m ρ c) (Proc.devRef .tc main_arg0) = _
  after_results

/-- Argument 1 ends as launched. -/
theorem arg1_kept (c : Dev nD) :
    StableHlo.after hostOps1 (atExit m ρ c) (Proc.devRef .tc main_arg1) = m ((c.tc : Thread nD τ).loc main_arg1) := by
  after_results
  rw [atExit_of_ne m ρ c main_arg1 (by decide)]
  show StableHlo.after hostOps0 (atLaunch m ρ c) (Proc.devRef .tc main_arg1) = _
  after_results

/-- Argument 2 ends as launched. -/
theorem arg2_kept (c : Dev nD) :
    StableHlo.after hostOps1 (atExit m ρ c) (Proc.devRef .tc main_arg2) = m ((c.tc : Thread nD τ).loc main_arg2) := by
  after_results
  rw [atExit_of_ne m ρ c main_arg2 (by decide)]
  show StableHlo.after hostOps0 (atLaunch m ρ c) (Proc.devRef .tc main_arg2) = _
  after_results

/-- Argument 3 ends as launched. -/
theorem arg3_kept (c : Dev nD) :
    StableHlo.after hostOps1 (atExit m ρ c) (Proc.devRef .tc main_arg3) = m ((c.tc : Thread nD τ).loc main_arg3) := by
  after_results
  rw [atExit_of_ne m ρ c main_arg3 (by decide)]
  show StableHlo.after hostOps0 (atLaunch m ρ c) (Proc.devRef .tc main_arg3) = _
  after_results

/-- The frame: the program runs to the end without a fault and its four argument arrays end unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_arg0 (by decide))).trans (arg0_kept m ρ c),
     (h c _ (mem_unscoped main_arg1 (by decide))).trans (arg1_kept m ρ c),
     (h c _ (mem_unscoped main_arg2 (by decide))).trans (arg2_kept m ρ c),
     (h c _ (mem_unscoped main_arg3 (by decide))).trans (arg3_kept m ρ c)⟩) (run_main m ρ)

/-- The run with the result named: the scalar the last stretch computes from the exit contents. -/
theorem result_run : θ_run defs (onTc (τ := τ) (main (F := F))) ⟨m, fun _ => 0, ρ⟩ (fun r => ∀ c : Dev nD,
      r.2.mem ((c.tc : Thread nD τ).loc main_v19) = StableHlo.after hostOps1 (atExit m ρ c) (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_unscoped main_v19 (by decide)),
     (h c _ (mem_unscoped main_arg0 (by decide))).trans (arg0_kept m ρ c),
     (h c _ (mem_unscoped main_arg1 (by decide))).trans (arg1_kept m ρ c),
     (h c _ (mem_unscoped main_arg2 (by decide))).trans (arg2_kept m ρ c),
     (h c _ (mem_unscoped main_arg3 (by decide))).trans (arg3_kept m ρ c)⟩) (run_main m ρ)

end Cert.KernelIdeal.Hand

end
-- ==== Proof.KI.EntryValues.lean ====
/-
  The host stretches as functions of the arguments.

  Before the region: the feature weights divided by 16; the node weights divided by their sum and raised to the power
  1/4; each of the two [1,4,1,1024,16] arguments reshaped to [4,1024,16], multiplied by the node scale along its place
  axis, and transposed to [16,4,1024]. After the region: the output array summed and divided by 16.
-/
import proofs.«115486_j74277164417458_1_alg».proof.Proof.KI.OutputArray
import proofs.«115486_j74277164417458_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normalised feature weights. -/
def normWeights (x3 : (⟨S16, .f32⟩ : BufTy).Contents (Elt F)) : (⟨S16, .f32⟩ : BufTy).Contents (Elt F) :=
  Host.divf x3 (broadcastInDim S16 ![] bcast_S_S16 (constant S_ .f32 0x41800000#32))

/-- The node scale: each node weight over the sum of all, to the power one quarter. -/
def nodeScale (x2 : (⟨S1024, .f32⟩ : BufTy).Contents (Elt F)) : (⟨S1024, .f32⟩ : BufTy).Contents (Elt F) :=
  Host.powf
    (Host.divf x2 (broadcastInDim S1024 ![] bcast_S_S1024 (Host.reduceAdd x2 (constant S_ .f32 0x00000000#32) reducesTo_S1024_S_d0 h_S_)))
    (broadcastInDim S1024 ![] bcast_S_S1024 (constant S_ .f32 0x3E800000#32))

/-- A [1,4,1,1024,16] argument scaled along its places and laid out feature-first. -/
def scaledLayout (x : (⟨S1x4x1x1024x16, .f32⟩ : BufTy).Contents (Elt F)) (x2 : (⟨S1024, .f32⟩ : BufTy).Contents (Elt F)) : (⟨S16x4x1024, .f32⟩ : BufTy).Contents (Elt F) :=
  transpose S16x4x1024 [2, 0, 1]
    (mulf (shapeCast S4x1024x16 x shapeCasts_S1x4x1x1024x16_S4x1024x16)
      (broadcastInDim S4x1024x16 ![0, 1, 2] bcast_S1x1024x1_S4x1024x16_0_1_2
        (broadcastInDim S1x1024x1 ![1] bcast_S1024_S1x1024x1_1 (nodeScale x2))))
    transposes_S4x1024x16_S16x4x1024_2_0_1

/-- The last stretch: the sum of the 1024 row sums, over 16. -/
def finish (y : (⟨S1024, .f32⟩ : BufTy).Contents (Elt F)) : (⟨S_, .f32⟩ : BufTy).Contents (Elt F) :=
  Host.divf (Host.reduceAdd y (constant S_ .f32 0x00000000#32) reducesTo_S1024_S_d0 h_S_) (constant S_ .f32 0x41800000#32)

theorem entry_weights (c : Dev nD) :
    (atEntry m ρ c main_v1 : (⟨S16, .f32⟩ : BufTy).Contents (Elt F)) = normWeights (m ((c.tc : Thread nD τ).loc main_arg3)) := by
  show StableHlo.after hostOps0 (atLaunch m ρ c) (Proc.devRef .tc main_v1) = _
  after_results
  rfl

theorem entry_preds (c : Dev nD) :
    (atEntry m ρ c main_v15 : (⟨S16x4x1024, .f32⟩ : BufTy).Contents (Elt F)) = scaledLayout (m ((c.tc : Thread nD τ).loc main_arg0)) (m ((c.tc : Thread nD τ).loc main_arg2)) := by
  show StableHlo.after hostOps0 (atLaunch m ρ c) (Proc.devRef .tc main_v15) = _
  after_results
  rfl

theorem entry_targets (c : Dev nD) :
    (atEntry m ρ c main_v16 : (⟨S16x4x1024, .f32⟩ : BufTy).Contents (Elt F)) = scaledLayout (m ((c.tc : Thread nD τ).loc main_arg1)) (m ((c.tc : Thread nD τ).loc main_arg2)) := by
  show StableHlo.after hostOps0 (atLaunch m ρ c) (Proc.devRef .tc main_v16) = _
  after_results
  rfl

/-- The result scalar: the last stretch applied to the output array after the region. -/
theorem result_eq (c : Dev nD) :
    StableHlo.after hostOps1 (atExit m ρ c) (Proc.devRef .tc main_v19) = finish (outArray m ρ c) := by
  after_results
  rw [atExit_out, out_final]
  rfl

end Cert.KernelIdeal.Hand

end
-- ==== Proof.ScoreSpec.lean ====
/-
  The data both programs compute the score from, as functions of the four arguments.

  `x0`, `x1`: predictions and targets, indexed (1, member, 1, place, feature). `x2`: the 1024 node weights. `x3`: the 16
  feature weights. A place's scale is its node weight over the sum of all node weights, to the power one quarter; the
  scaled data are the raw data times their place's scale; a feature's normalised weight is its weight over 16.
-/
import proofs.«115486_j74277164417458_1_alg».proof.Proof.ScoreLaws
import Idealize.ShloMosaic.Lib.ValueIdx

noncomputable section

namespace Cert.ScoreSpec

open Idealize.ShloMosaic Idealize.ShloMosaic.ValueIdx Cert.ScoreLaws

abbrev Arg5 : Type := (⟨5, ![1, 4, 1, 1024, 16]⟩ : Shape).Idx → EReal
abbrev Arg1024 : Type := (⟨1, ![1024]⟩ : Shape).Idx → EReal
abbrev Arg16 : Type := (⟨1, ![16]⟩ : Shape).Idx → EReal

/-- The scale of place `a`. -/
def scaleOf (x2 : Arg1024) (a : Fin 1024) : EReal :=
  Ideal.pow (Ideal.div (x2 (ix1 a)) (0 + ∑ i : (⟨1, ![1024]⟩ : Shape).Idx, x2 i)) (Ideal.ofBits .f32 0x3E800000#32)

/-- The scaled datum of feature `v`, member `e`, place `a`. -/
def scaled (x : Arg5) (x2 : Arg1024) (v : Fin 16) (e : Fin 4) (a : Fin 1024) : EReal :=
  x (ix5 (0 : Fin 1) e (0 : Fin 1) a v) * scaleOf x2 a

/-- The normalised weight of feature `v`. -/
def weightOf (x3 : Arg16) (v : Fin 16) : EReal := Ideal.div (x3 (ix1 v)) (Ideal.ofBits .f32 0x41800000#32)

/-- The score as the kernel's program computes it, -/
def kernelScore (x0 x1 : Arg5) (x2 : Arg1024) (x3 : Arg16) : EReal :=
  Ideal.div (kernelOrder (scaled x0 x2) (scaled x1 x2) (weightOf x3)) (Ideal.ofBits .f32 0x41800000#32)

/-- and as the reference computes it: -/
def referenceScore (x0 x1 : Arg5) (x2 : Arg1024) (x3 : Arg16) : EReal :=
  Ideal.div (referenceOrder (scaled x0 x2) (scaled x1 x2) (weightOf x3)) (Ideal.ofBits .f32 0x41800000#32)

/-- one number. -/
theorem scores_agree (x0 x1 : Arg5) (x2 : Arg1024) (x3 : Arg16) : kernelScore x0 x1 x2 x3 = referenceScore x0 x1 x2 x3 := by
  unfold kernelScore referenceScore; rw [orders_agree]

/-- The 1024 places as indices of a [1024] array. -/
def placeEquiv : Fin 1024 ≃ (⟨1, ![1024]⟩ : Shape).Idx where
  toFun := ix1
  invFun i := i 0
  left_inv _ := rfl
  right_inv i := (eq_ix1 i).symm

theorem sum_places (f : (⟨1, ![1024]⟩ : Shape).Idx → EReal) : ∑ i, f i = ∑ a : Fin 1024, f (ix1 a) :=
  (placeEquiv.sum_comp f).symm

end Cert.ScoreSpec

end
-- ==== Proof.KI.KernelTotal.lean ====
/-
  The kernel program's result over the extended reals: the score in the kernel's order of summation.

  The host functions are read at an index: a division by a splatted constant is the division by the constant; the node
  scale at place `a` divides by the sum of all 1024 node weights; the reshape, the scaling and the transposition take
  entry (feature, member, place) to the raw datum (1, member, 1, place, feature) times the place's scale. With the output
  array's rows from the running sums, the result is the sum over the places of the row totals, over 16.
-/
import proofs.«115486_j74277164417458_1_alg».proof.Proof.KI.RowTotal
import proofs.«115486_j74277164417458_1_alg».proof.Proof.KI.EntryValues
import proofs.«115486_j74277164417458_1_alg».proof.Proof.ScoreSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx Cert.ScoreLaws

variable (m : (ℓ : Loc nD τ sig) → Buf (Elt Ideal) ℓ) (ρ : Dev nD → PrngReg)

open Cert.ScoreSpec

theorem normWeights_apply (x3 : S16.Idx → EReal) (v : Fin 16) :
    normWeights (F := Ideal) x3 (ix1 v) = weightOf x3 v := by
  unfold normWeights weightOf
  show Ideal.div (x3 (ix1 v)) (broadcastInDim S16 ![] bcast_S_S16 (constant (F := Ideal) S_ .f32 0x41800000#32) (ix1 v)) = _
  rw [broadcastInDim_apply ![] bcast_S_S16 _ (ix1 v) ix0 (fun a => a.elim0)]
  rfl

/-- The host's sum of a [1024] array into a scalar, from zero. -/
theorem sumAll_apply (y : S1024.Idx → EReal) (i : S_.Idx) :
    Host.reduceAdd (F := Ideal) y (constant (F := Ideal) S_ .f32 0x00000000#32) reducesTo_S1024_S_d0 h_S_ i = 0 + ∑ k : S1024.Idx, y k := by
  simp only [Host.reduceAdd, Ideal.hostReduceAdd_def]
  refine (Ideal.hostReduceAdd_total reducesTo_S1024_S_d0 (fun b => b.elim0) y _ i).trans ?_
  refine congrArg (· + _) ?_
  show Ideal.ofBits .f32 0x00000000#32 = 0
  exact Ideal.ofBits_zero_f32

theorem nodeScale_apply (x2 : S1024.Idx → EReal) (a : Fin 1024) :
    nodeScale (F := Ideal) x2 (ix1 a) = scaleOf x2 a := by
  unfold nodeScale scaleOf
  show Ideal.pow (Ideal.div (x2 (ix1 a))
      (broadcastInDim S1024 ![] bcast_S_S1024 (Host.reduceAdd (F := Ideal) x2 (constant (F := Ideal) S_ .f32 0x00000000#32) reducesTo_S1024_S_d0 h_S_) (ix1 a)))
    (broadcastInDim S1024 ![] bcast_S_S1024 (constant (F := Ideal) S_ .f32 0x3E800000#32) (ix1 a)) = _
  rw [broadcastInDim_apply ![] bcast_S_S1024 _ (ix1 a) ix0 (fun b => b.elim0),
    broadcastInDim_apply ![] bcast_S_S1024 _ (ix1 a) ix0 (fun b => b.elim0), sumAll_apply]
  rfl

theorem scaledLayout_apply (x : S1x4x1x1024x16.Idx → EReal) (x2 : S1024.Idx → EReal) (v : Fin 16) (e : Fin 4) (a : Fin 1024) :
    scaledLayout (F := Ideal) x x2 (ix3 v e a) = scaled x x2 v e a := by
  unfold scaledLayout scaled
  refine (transpose_apply [2, 0, 1] _ transposes_S4x1024x16_S16x4x1024_2_0_1 (ix3 v e a) (ix3 e a v) (fun b => ?_)).trans ?_
  · match b with
    | ⟨0, _⟩ => rfl
    | ⟨1, _⟩ => rfl
    | ⟨2, _⟩ => rfl
  · show shapeCast S4x1024x16 x shapeCasts_S1x4x1x1024x16_S4x1024x16 (ix3 e a v)
        * broadcastInDim S4x1024x16 ![0, 1, 2] bcast_S1x1024x1_S4x1024x16_0_1_2
            (broadcastInDim S1x1024x1 ![1] bcast_S1024_S1x1024x1_1 (nodeScale (F := Ideal) x2)) (ix3 e a v) = _
    rw [shapeCast_apply x shapeCasts_S1x4x1x1024x16_S4x1024x16 (ix3 e a v) (ix5 (0 : Fin 1) e (0 : Fin 1) a v) (by
        rw [Shape.rowMajor_val_five, Shape.rowMajor_val_three]
        show (((0 * 4 + e.val) * 1 + 0) * 1024 + a.val) * 16 + v.val = (e.val * 1024 + a.val) * 16 + v.val
        omega),
      broadcastInDim_apply ![0, 1, 2] bcast_S1x1024x1_S4x1024x16_0_1_2 _ (ix3 e a v) (ix3 (0 : Fin 1) a (0 : Fin 1)) (fun b => by
        match b with
        | ⟨0, _⟩ => show (0 : Nat) = if (1 : Nat) = 1 then 0 else e.val; rw [if_pos rfl]
        | ⟨1, _⟩ => show a.val = if (1024 : Nat) = 1 then 0 else a.val; rw [if_neg (by decide)]
        | ⟨2, _⟩ => show (0 : Nat) = if (1 : Nat) = 1 then 0 else v.val; rw [if_pos rfl]),
      broadcastInDim_apply ![1] bcast_S1024_S1x1024x1_1 _ (ix3 (0 : Fin 1) a (0 : Fin 1)) (ix1 a) (fun b => by
        match b with
        | ⟨0, _⟩ => show a.val = if (1024 : Nat) = 1 then 0 else a.val; rw [if_neg (by decide)]),
      nodeScale_apply]

theorem finish_apply (y : S1024.Idx → EReal) (i : S_.Idx) :
    finish (F := Ideal) y i = Ideal.div (0 + ∑ a : Fin 1024, y (ix1 a)) (Ideal.ofBits .f32 0x41800000#32) := by
  unfold finish
  show Ideal.div (Host.reduceAdd (F := Ideal) y (constant (F := Ideal) S_ .f32 0x00000000#32) reducesTo_S1024_S_d0 h_S_ i)
    (Ideal.ofBits .f32 0x41800000#32) = _
  rw [sumAll_apply, sum_places]

/-- The kernel program's result is the score in the kernel's order. -/
theorem kernel_result (c : Dev nD) (i : S_.Idx) :
    (StableHlo.after hostOps1 (atExit m ρ c) (Proc.devRef .tc main_v19) : S_.Idx → EReal) i
      = kernelScore (m ((c.tc : Thread nD τ).loc main_arg0)) (m ((c.tc : Thread nD τ).loc main_arg1))
          (m ((c.tc : Thread nD τ).loc main_arg2)) (m ((c.tc : Thread nD τ).loc main_arg3)) := by
  rw [result_eq, finish_apply]
  unfold kernelScore kernelOrder
  refine congrArg (Ideal.div · _) (congrArg (0 + ·) (Finset.sum_congr rfl fun a _ => ?_))
  rw [outArray_apply]
  refine congrArg (0 + ·) (Finset.sum_congr rfl fun b _ => Finset.sum_congr rfl fun v _ => ?_)
  unfold cellAt cellOf
  have hw : wts m ρ c (ix1 v) = weightOf (m ((c.tc : Thread nD τ).loc main_arg3)) v := by
    show (atEntry m ρ c main_v1 : S16.Idx → EReal) (ix1 v) = _
    rw [entry_weights, normWeights_apply]
  have hp : ∀ (e : Fin 4) (q : Fin 1024), prd m ρ c (ix3 v e q)
      = scaled (m ((c.tc : Thread nD τ).loc main_arg0)) (m ((c.tc : Thread nD τ).loc main_arg2)) v e q := fun e q => by
    show (atEntry m ρ c main_v15 : S16x4x1024.Idx → EReal) (ix3 v e q) = _
    rw [entry_preds, scaledLayout_apply]
  have ht : ∀ (e : Fin 4) (q : Fin 1024), tgt m ρ c (ix3 v e q)
      = scaled (m ((c.tc : Thread nD τ).loc main_arg1)) (m ((c.tc : Thread nD τ).loc main_arg2)) v e q := fun e q => by
    show (atEntry m ρ c main_v16 : S16x4x1024.Idx → EReal) (ix3 v e q) = _
    rw [entry_targets, scaledLayout_apply]
  rw [hw]
  exact congrArg (· * _) (congr (congr (congr (congrArg cell (funext fun e => hp e a)) (funext fun e => hp e b))
    (funext fun e => ht e a)) (funext fun e => ht e b))

end Cert.KernelIdeal.Hand

end
-- ==== Proof.RefValue.lean ====
/-
  The reference's result over the extended reals: the score in the reference's order of summation.

  The reference scales the raw data by the place's scale in place, forms every pairwise difference along two copies of
  the place axis, takes the absolute value to the power `4.0` (the square of the square: ScoreLaws), means over the four
  ensemble members, squares the difference of the targets' and predictions' means, sums over both place axes, weights
  by the feature and sums over the features, over 16.
-/
import proofs.«115486_j74277164417458_1_alg».proof.Proof.Gen.ReferenceIdeal.Read
import proofs.«115486_j74277164417458_1_alg».proof.Proof.ScoreSpec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.ScoreLaws Cert.ScoreSpec

/-- The 1024 places as indices of a [1024, 1] column. -/
def columnEquiv : S1024.Idx ≃ S1024x1.Idx where
  toFun i := ix2 (i 0) (0 : Fin 1)
  invFun j := ix1 (j 0)
  left_inv i := (eq_ix1 i).symm
  right_inv j := funext fun d => by
    match d with
    | ⟨0, _⟩ => rfl
    | ⟨1, _⟩ => exact Fin.ext (by have h1 : (j 1).val < 1 := (j 1).isLt; show (0 : Nat) = (j 1).val; omega)

/-- The scale of a place, off the column of node weights. -/
theorem scale_apply (x2 : Arg1024) (j : S1024x1.Idx) : val_main_v7 (F := Ideal) x2 j = scaleOf x2 (j 0) := by
  rw [val_main_v7_apply, val_main_v5_apply, val_main_v2_apply, val_main_v4_apply, val_main_v3_apply, val_main_v6_apply,
    val_main_cst_1_apply, val_main_cst_0_apply]
  unfold scaleOf
  show Ideal.pow (Ideal.div (x2 (idx_main_v2 j)) (Ideal.ofBits .f32 0x00000000#32 + ∑ j' : S1024x1.Idx, val_main_v2 (F := Ideal) x2 j'))
    (Ideal.ofBits .f32 0x3E800000#32) = _
  have e0 : idx_main_v2 j = ix1 (j 0) := funext fun d => Fin.ext (by match d with | ⟨0, _⟩ => rfl)
  have es : ∑ j' : S1024x1.Idx, val_main_v2 (F := Ideal) x2 j' = ∑ i : S1024.Idx, x2 i := by
    rw [← columnEquiv.sum_comp]
    refine Finset.sum_congr rfl fun i _ => ?_
    rw [val_main_v2_apply]
    exact congrArg x2 (funext fun d => Fin.ext (by match d with | ⟨0, _⟩ => rfl))
  rw [e0, es, Ideal.ofBits_zero_f32]
  rfl

/-- The scaled preds at (1, member, 1, place, feature). -/
theorem preds_scaled (x0 : Arg5) (x2 : Arg1024) (v : Fin 16) (e : Fin 4) (a : Fin 1024) :
    val_main_v10 (F := Ideal) x0 x2 (ix5 (0 : Fin 1) e (0 : Fin 1) a v) = scaled x0 x2 v e a := by
  rw [val_main_v10_apply, val_main_v9_apply, val_main_v8_apply, scale_apply]
  rfl

/-- The mean fourth-power difference of the scaled preds between places `a` and `b`. -/
theorem preds_qmean (x0 : Arg5) (x2 : Arg1024) (v : Fin 16) (a b : Fin 1024) :
    val_main_v24 (F := Ideal) x0 x2 (ix5 (0 : Fin 1) (0 : Fin 1) a b v)
      = qmean (fun e => scaled x0 x2 v e a) (fun e => scaled x0 x2 v e b) := by
  rw [val_main_v24_apply, val_main_v22_apply, val_main_v23_apply, val_main_cst_4_apply, val_main_cst_3_apply]
  unfold qmean
  show Ideal.div (Ideal.ofBits .f32 0x00000000#32 + _) (Ideal.ofBits .f32 0x40800000#32) = _
  rw [Ideal.ofBits_zero_f32, zero_add]
  refine congrArg (Ideal.div · _) (Finset.sum_congr rfl fun (e : Fin 4) _ => ?_)
  rw [val_main_v21_apply, val_main_v19_apply, val_main_v18_apply, val_main_v20_apply, val_main_cst_2_apply,
    val_main_v16_apply, val_main_v14_apply, val_main_v17_apply, val_main_v15_apply]
  have ea : idx_main_v14 (idx_main_v16 (idx_main_v22 (ix5 (0 : Fin 1) (0 : Fin 1) a b v) e)) = ix5 (0 : Fin 1) e (0 : Fin 1) a v :=
    funext fun d => Fin.ext (by match d with | ⟨0, _⟩ => rfl | ⟨1, _⟩ => rfl | ⟨2, _⟩ => rfl | ⟨3, _⟩ => rfl | ⟨4, _⟩ => rfl)
  have eb : idx_main_v15 (idx_main_v17 (idx_main_v22 (ix5 (0 : Fin 1) (0 : Fin 1) a b v) e)) = ix5 (0 : Fin 1) e (0 : Fin 1) b v :=
    funext fun d => Fin.ext (by match d with | ⟨0, _⟩ => rfl | ⟨1, _⟩ => rfl | ⟨2, _⟩ => rfl | ⟨3, _⟩ => rfl | ⟨4, _⟩ => rfl)
  rw [ea, eb, preds_scaled, preds_scaled]
  exact pow_abs_four_bits _

/-- The scaled targets at (1, member, 1, place, feature). -/
theorem targets_scaled (x1 : Arg5) (x2 : Arg1024) (v : Fin 16) (e : Fin 4) (a : Fin 1024) :
    val_main_v13 (F := Ideal) x1 x2 (ix5 (0 : Fin 1) e (0 : Fin 1) a v) = scaled x1 x2 v e a := by
  rw [val_main_v13_apply, val_main_v12_apply, val_main_v11_apply, scale_apply]
  rfl

/-- The mean fourth-power difference of the scaled targets between places `a` and `b`. -/
theorem targets_qmean (x1 : Arg5) (x2 : Arg1024) (v : Fin 16) (a b : Fin 1024) :
    val_main_v35 (F := Ideal) x1 x2 (ix5 (0 : Fin 1) (0 : Fin 1) a b v)
      = qmean (fun e => scaled x1 x2 v e a) (fun e => scaled x1 x2 v e b) := by
  rw [val_main_v35_apply, val_main_v33_apply, val_main_v34_apply, val_main_cst_7_apply, val_main_cst_6_apply]
  unfold qmean
  show Ideal.div (Ideal.ofBits .f32 0x00000000#32 + _) (Ideal.ofBits .f32 0x40800000#32) = _
  rw [Ideal.ofBits_zero_f32, zero_add]
  refine congrArg (Ideal.div · _) (Finset.sum_congr rfl fun (e : Fin 4) _ => ?_)
  rw [val_main_v32_apply, val_main_v30_apply, val_main_v29_apply, val_main_v31_apply, val_main_cst_5_apply,
    val_main_v27_apply, val_main_v25_apply, val_main_v28_apply, val_main_v26_apply]
  have ea : idx_main_v25 (idx_main_v27 (idx_main_v33 (ix5 (0 : Fin 1) (0 : Fin 1) a b v) e)) = ix5 (0 : Fin 1) e (0 : Fin 1) a v :=
    funext fun d => Fin.ext (by match d with | ⟨0, _⟩ => rfl | ⟨1, _⟩ => rfl | ⟨2, _⟩ => rfl | ⟨3, _⟩ => rfl | ⟨4, _⟩ => rfl)
  have eb : idx_main_v26 (idx_main_v28 (idx_main_v33 (ix5 (0 : Fin 1) (0 : Fin 1) a b v) e)) = ix5 (0 : Fin 1) e (0 : Fin 1) b v :=
    funext fun d => Fin.ext (by match d with | ⟨0, _⟩ => rfl | ⟨1, _⟩ => rfl | ⟨2, _⟩ => rfl | ⟨3, _⟩ => rfl | ⟨4, _⟩ => rfl)
  rw [ea, eb, targets_scaled, targets_scaled]
  exact pow_abs_four_bits _

/-- One cell of the score. -/
theorem cell_apply (x0 x1 : Arg5) (x2 : Arg1024) (v : Fin 16) (a b : Fin 1024) :
    val_main_v37 (F := Ideal) x0 x1 x2 (ix5 (0 : Fin 1) (0 : Fin 1) a b v) = cellOf (scaled x0 x2) (scaled x1 x2) v a b := by
  rw [val_main_v37_apply, val_main_v36_apply, targets_qmean, preds_qmean]
  rfl

/-- The pairs of places as the indices of the [1,1,1024,1024,16] array over a fixed feature. -/
theorem pairSum (y : S1x1x1024x1024x16.Idx → EReal) (v : Fin 16) :
    Ideal.hostReduceAdd reducesTo_S1x1x1024x1024x16_S1x1x16_d2_3 y 0 (ix3 (0 : Fin 1) (0 : Fin 1) v)
      = 0 + ∑ a : Fin 1024, ∑ b : Fin 1024, y (ix5 (0 : Fin 1) (0 : Fin 1) a b v) := by
  unfold Ideal.hostReduceAdd
  refine congrArg (0 + ·) ?_
  rw [← Finset.sum_product']
  refine Finset.sum_bij' (fun i _ => (i 2, i 3)) (fun p _ => ix5 (0 : Fin 1) (0 : Fin 1) p.1 p.2 v) ?_ ?_ ?_ ?_ ?_
  · intro i _; exact Finset.mem_product.mpr ⟨Finset.mem_univ _, Finset.mem_univ _⟩
  · intro p _
    refine Finset.mem_filter.mpr ⟨Finset.mem_univ _, funext fun d => Fin.ext ?_⟩
    match d with
    | ⟨0, _⟩ => rfl
    | ⟨1, _⟩ => rfl
    | ⟨2, _⟩ => rfl
  · intro i hi
    have hd := (Finset.mem_filter.mp hi).2
    have h4 : (i 4).val = v.val := congrArg Fin.val (congrFun hd (2 : Fin 3))
    refine funext fun d => Fin.ext ?_
    match d with
    | ⟨0, _⟩ => have h0 : (i 0).val < 1 := (i 0).isLt; show (0 : Nat) = (i 0).val; omega
    | ⟨1, _⟩ => have h1 : (i 1).val < 1 := (i 1).isLt; show (0 : Nat) = (i 1).val; omega
    | ⟨2, _⟩ => rfl
    | ⟨3, _⟩ => rfl
    | ⟨4, _⟩ => exact h4.symm
  · intro p _; rfl
  · intro i hi
    have hd := (Finset.mem_filter.mp hi).2
    have h4 : (i 4).val = v.val := congrArg Fin.val (congrFun hd (2 : Fin 3))
    refine congrArg y (funext fun d => Fin.ext ?_)
    match d with
    | ⟨0, _⟩ => have h0 : (i 0).val < 1 := (i 0).isLt; show (i 0).val = (0 : Nat); omega
    | ⟨1, _⟩ => have h1 : (i 1).val < 1 := (i 1).isLt; show (i 1).val = (0 : Nat); omega
    | ⟨2, _⟩ => rfl
    | ⟨3, _⟩ => rfl
    | ⟨4, _⟩ => exact h4

/-- A feature's cells summed over both places. -/
theorem feature_apply (x0 x1 : Arg5) (x2 : Arg1024) (v : Fin 16) :
    val_main_v38 (F := Ideal) x0 x1 x2 (ix3 (0 : Fin 1) (0 : Fin 1) v)
      = 0 + ∑ a : Fin 1024, ∑ b : Fin 1024, cellOf (scaled x0 x2) (scaled x1 x2) v a b := by
  unfold val_main_v38
  simp only [Host.reduceAdd, Ideal.hostReduceAdd_def]
  have hc : (val_main_cst_8 (F := Ideal)) (Shape.Idx.first h_S_) = 0 := Ideal.ofBits_zero_f32
  rw [hc, pairSum]
  refine congrArg (0 + ·) (Finset.sum_congr rfl fun a _ => Finset.sum_congr rfl fun b _ => ?_)
  exact cell_apply x0 x1 x2 v a b

/-- The 16 features as the indices of a [1,1,16] array. -/
def featureEquiv : Fin 16 ≃ S1x1x16.Idx where
  toFun v := ix3 (0 : Fin 1) (0 : Fin 1) v
  invFun j := j 2
  left_inv _ := rfl
  right_inv j := funext fun d => by
    match d with
    | ⟨0, _⟩ => exact Fin.ext (by have h0 : (j 0).val < 1 := (j 0).isLt; show (0 : Nat) = (j 0).val; omega)
    | ⟨1, _⟩ => exact Fin.ext (by have h1 : (j 1).val < 1 := (j 1).isLt; show (0 : Nat) = (j 1).val; omega)
    | ⟨2, _⟩ => rfl

/-- The reference's result is the score in the reference's order. -/
theorem reference_result (x0 x1 : Arg5) (x2 : Arg1024) (x3 : Arg16) (i : S_.Idx) :
    val_main_v42 (F := Ideal) x0 x1 x2 x3 i = referenceScore x0 x1 x2 x3 := by
  rw [val_main_v42_apply, val_main_v41_apply, val_main_cst_10_apply, val_main_cst_9_apply]
  unfold referenceScore referenceOrder
  show Ideal.div (Ideal.ofBits .f32 0x00000000#32 + _) (Ideal.ofBits .f32 0x41800000#32) = _
  rw [Ideal.ofBits_zero_f32]
  refine congrArg (Ideal.div · _) (congrArg (0 + ·) ?_)
  rw [← featureEquiv.sum_comp]
  refine Finset.sum_congr rfl fun v _ => ?_
  show val_main_v40 (F := Ideal) x0 x1 x2 x3 (ix3 (0 : Fin 1) (0 : Fin 1) v) = _
  rw [val_main_v40_apply, feature_apply, val_main_v39_apply, val_main_v1_apply, val_main_v0_apply, val_main_cst_apply]
  have ev : idx_main_v39 (ix3 (0 : Fin 1) (0 : Fin 1) v) = ix1 v := funext fun d => Fin.ext (by match d with | ⟨0, _⟩ => rfl)
  rw [ev]
  rfl

end Cert.ReferenceIdeal.RefValue

end
-- ==== Proof.lean ====
/-
  The certificate of the pairwise fourth-power score kernel against its reference.

  The kernel tiles the 1024 x 1024 pairs of places into an 8 x 8 grid of 128 x 128 tiles; at each tile it forms, for
  every feature, the mean over the four ensemble members of the fourth power of the pairwise difference, for the scaled
  predictions and for the scaled targets, squares the difference of the two means, weights it by the feature's
  normalised weight, sums over the features and the tile's columns, and accumulates the row sums across the tiles of a
  grid row. The host sums the 1024 row sums and divides by 16. The reference forms the same cells on the whole arrays,
  with the fourth power as the power function at 4.0 of an absolute value, sums each feature's cells over both places,
  weights, sums over the features and divides by 16.

  Over the extended reals the two are one number: the fourth power of an absolute value is the square of the square at
  every extended real; sums commute; and the weight moves across a sum of cells because every cell is a square, hence
  non-negative, so that no infinity of one sign meets one of the other (ScoreLaws). Finiteness of the inputs is not
  used.

  The three programs' runs: the reference's is its operations composed; the kernel program's — the same text at the
  word-level and at the extended-real instance — is the host operations before the kernel, the kernel's region over the
  grid with the two arrays that two windows read held in half shares, and the host operations after it.
-/
import proofs.«115486_j74277164417458_1_alg».proof.Defs
import proofs.«115486_j74277164417458_1_alg».proof.Proof.Gen.Kernel
import proofs.«115486_j74277164417458_1_alg».proof.Proof.Gen.KernelIdeal
import proofs.«115486_j74277164417458_1_alg».proof.Proof.Gen.ReferenceIdeal
import proofs.«115486_j74277164417458_1_alg».proof.Proof.Gen.Pre_finite_inputs
import proofs.«115486_j74277164417458_1_alg».proof.Proof.Gen.ReferenceIdeal.Run
import proofs.«115486_j74277164417458_1_alg».proof.Proof.Gen.ReferenceIdeal.Read
import proofs.«115486_j74277164417458_1_alg».proof.Proof.KIB.Frame
import proofs.«115486_j74277164417458_1_alg».proof.Proof.KI.KernelTotal
import proofs.«115486_j74277164417458_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_kernel : Cert.frame_Kernel := fun m ρ _ => Cert.Kernel.Hand.frame_run (F := Bits) m ρ

/-- So does it read over the extended reals. -/
theorem frame_kernelIdeal : Cert.frame_KernelIdeal := fun m ρ _ => Cert.KernelIdeal.Hand.frame_run (F := Ideal) m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the score: the kernel's in its order of summation, the
    reference's in its own, one extended real. -/
theorem algebraic : Cert.algebraic_KernelIdeal_ReferenceIdeal := by
  intro m ρ m' ρ' _ hagree
  refine ⟨fun c => StableHlo.after Cert.KernelIdeal.Gen.hostOps1 (Cert.KernelIdeal.Hand.atExit m ρ c) (Proc.devRef .tc Cert.KernelIdeal.main_v19),
    Cert.KernelIdeal.Hand.result_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2]
  refine funext fun i => ?_
  exact (Cert.ReferenceIdeal.RefValue.reference_result _ _ _ _ i).trans
    ((Cert.ScoreSpec.scores_agree _ _ _ _).symm.trans (Cert.KernelIdeal.Hand.kernel_result m ρ c i).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
